-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x512 .f32) (main_arg1 : IVec S2x6400000 32) (main_arg2 : FVec F S512x16 .f32) (main_arg3 : FVec F S16 .f32) (main_arg4 : FVec F S16x16 .f32) (main_arg5 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S2000x512 : Shape := ⟨2, ![2000, 512]⟩
abbrev S2000x16 : Shape := ⟨2, ![2000, 16]⟩
abbrev S6500000x16 : Shape := ⟨2, ![6500000, 16]⟩
abbrev S1x16 : Shape := ⟨2, ![1, 16]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S6500000x1, .f32⟩
  | .hbm, ⟨48, _⟩ => ⟨S_, .i32⟩
  | .hbm, ⟨49, _⟩ => ⟨S6500000, .i32⟩
  | .hbm, ⟨50, _⟩ => ⟨S6500000, .i1⟩
  | .hbm, ⟨51, _⟩ => ⟨S_, .i32⟩
  | .hbm, ⟨52, _⟩ => ⟨S6500000, .i32⟩
  | .hbm, ⟨53, _⟩ => ⟨S6500000, .i32⟩
  | .hbm, ⟨54, _⟩ => ⟨S6500000, .i32⟩
  | .hbm, ⟨55, _⟩ => ⟨S6500000x1, .i32⟩
  | .hbm, ⟨56, _⟩ => ⟨S6500000x16, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S6500000x1, .f32⟩
  | .hbm, ⟨66, _⟩ => ⟨S_, .i32⟩
  | .hbm, ⟨67, _⟩ => ⟨S6500000, .i32⟩
  | .hbm, ⟨68, _⟩ => ⟨S6500000, .i1⟩
  | .hbm, ⟨69, _⟩ => ⟨S_, .i32⟩
  | .hbm, ⟨70, _⟩ => ⟨S6500000, .i32⟩
  | .hbm, ⟨71, _⟩ => ⟨S6500000, .i32⟩
  | .hbm, ⟨72, _⟩ => ⟨S6500000, .i32⟩
  | .hbm, ⟨73, _⟩ => ⟨S6500000x1, .i32⟩
  | .hbm, ⟨74, _⟩ => ⟨S6500000x16, .f32⟩
  | .hbm, ⟨75, _⟩ => ⟨S6500000x16, .f32⟩
  | .hbm, ⟨76, _⟩ => ⟨S6500000x16, .f32⟩
  | .hbm, ⟨77, _⟩ => ⟨S_, .f32⟩
  | .hbm, ⟨78, _⟩ => ⟨S100000x16, .f32⟩
  | .hbm, ⟨79, _⟩ => ⟨S6500000x1, .i32⟩
  | .hbm, ⟨80, _⟩ => ⟨S100000x16, .f32⟩
  | .hbm, ⟨81, _⟩ => ⟨S1x16, .f32⟩
  | .hbm, ⟨82, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S16x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x16_S16x16_0_0 : ∀ a, (![0, 0] : Fin 2 → Nat) a + S16x16.size a ≤ S16x16.size a
  h_S16x16 : 0 < S16x16.numel
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S2000x512_S512x16_S2000x16_1_0_0_1_n_n_wf : DotDims.WF S2000x512 S512x16 S2000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S2000x16_S16x16_S2000x16_1_0_0_1_n_n_wf : DotDims.WF S2000x16 S16x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S100000x16.size a
  hwx1_3 : ∀ i : grid1.Coords, EltTy.bits .f32 = 32 ∨ (Rect.block (s := S100000x16) S2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x6400000 : Shape := ⟨2, ![2, 6400000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S6500000x1, .f32⟩
  | .hbm, ⟨48, _⟩ => ⟨S_, .i32⟩
  | .hbm, ⟨49, _⟩ => ⟨S6500000, .i32⟩
  | .hbm, ⟨50, _⟩ => ⟨S6500000, .i1⟩
  | .hbm, ⟨51, _⟩ => ⟨S_, .i32⟩
  | .hbm, ⟨52, _⟩ => ⟨S6500000, .i32⟩
  | .hbm, ⟨53, _⟩ => ⟨S6500000, .i32⟩
  | .hbm, ⟨54, _⟩ => ⟨S6500000, .i32⟩
  | .hbm, ⟨55, _⟩ => ⟨S6500000x1, .i32⟩
  | .hbm, ⟨56, _⟩ => ⟨S6500000x16, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S6500000x1, .f32⟩
  | .hbm, ⟨71, _⟩ => ⟨S_, .i32⟩
  | .hbm, ⟨72, _⟩ => ⟨S6500000, .i32⟩
  | .hbm, ⟨73, _⟩ => ⟨S6500000, .i1⟩
  | .hbm, ⟨74, _⟩ => ⟨S_, .i32⟩
  | .hbm, ⟨75, _⟩ => ⟨S6500000, .i32⟩
  | .hbm, ⟨76, _⟩ => ⟨S6500000, .i32⟩
  | .hbm, ⟨77, _⟩ => ⟨S6500000, .i32⟩
  | .hbm, ⟨78, _⟩ => ⟨S6500000x1, .i32⟩
  | .hbm, ⟨79, _⟩ => ⟨S6500000x16, .f32⟩
  | .hbm, ⟨80, _⟩ => ⟨S6500000x16, .f32⟩
  | .hbm, ⟨81, _⟩ => ⟨S6500000x16, .f32⟩
  | .hbm, ⟨82, _⟩ => ⟨S_, .f32⟩
  | .hbm, ⟨83, _⟩ => ⟨S100000x16, .f32⟩
  | .hbm, ⟨84, _⟩ => ⟨S6500000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x512_S512x16_S100000x16_1_0_0_1_n_n_wf : DotDims.WF S100000x512 S512x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x16_S100000x16_1_0_0_1_n_n_wf : DotDims.WF S100000x16 S16x16 S100000x16 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The idealized kernel program's run with its result array named. The program is eight segments: three stretches of
  host operations, then the first dense stage, a stretch, the second dense stage, a stretch, the third dense stage.
  The contents of every buffer at each boundary are a fold from the launch memory (`W0` … `W8`); every weakly fair
  execution ends with each unscoped buffer at the last fold `W8`. Read at the result buffer this names what the
  program returns; read at the six arguments it says they end as launched.
-/
import proofs.«117412_j22462678958349_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the six argument arrays end as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.LayerSpec.lean ====
/-
  The three dense stages of a two-layer graph convolution, each as ONE function of whole arrays, index by index, on the
  extended reals. Rows are nodes (100000 of them); the feature width is 512 before the first layer and 16 after it.

  * `lin x w`      — the first layer's linear map: entry (r, j) is the sum over k < 512 of x[r, k] · w[k, j].
  * `reluLin a b w` — bias, rectifier, then the second linear map: entry (r, j) is the sum over k < 16 of
                       max (a[r, k] + b[0, k]) 0 · w[k, j].
  * `addBias a b`  — the closing bias: entry (r, j) is a[r, j] + b[0, j].

  The bias arrives as a [1, 16] row. A change of float format is the identity on the extended reals, so nothing
  of the narrowing to sixteen bits before each product appears here.
-/
import proofs.«117412_j22462678958349_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- x · w over 512 features: entry (r, j) is Σ_k x[r, k] · w[k, j]. -/
def lin (x : S100000x512.Idx → EReal) (w : S512x16.Idx → EReal) : S100000x16.Idx → EReal :=
  fun i => ∑ k : Fin 512, x (ix2 (i 0) k) * w (ix2 k (i 1))

/-- max (a + b) 0 · w over 16 features: entry (r, j) is Σ_k max (a[r, k] + b[0, k]) 0 · w[k, j]. -/
def reluLin (a : S100000x16.Idx → EReal) (b : S1x16.Idx → EReal) (w : S16x16.Idx → EReal) : S100000x16.Idx → EReal :=
  fun i => ∑ k : Fin 16, max (a (ix2 (i 0) k) + b (ix2 (0 : Fin 1) k)) 0 * w (ix2 k (i 1))

/-- a + b along rows: entry (r, j) is a[r, j] + b[0, j]. -/
def addBias (a : S100000x16.Idx → EReal) (b : S1x16.Idx → EReal) : S100000x16.Idx → EReal :=
  fun i => a i + b (ix2 (0 : Fin 1) (i 1))

end Cert.Gcn

end
-- ==== Proof.Glue.lean ====
/-
  The sparse half of the graph convolution as pure functions of whole arrays, and the network assembled from them.

  The graph has 100000 nodes and 6400000 directed edges; every node also gets a self loop, so there are 6500000
  messages. Message e goes from node `srcOf` e to node `dstOf` e: the two rows of the edge list, each followed by
  0, 1, …, 99999 for the self loops. A node's degree counts the messages it receives; `dinv` is degree^(-1/2) where the
  degree is positive and 0 elsewhere; message e carries the coefficient dinv[src e] · dinv[dst e]. A node index read from
  the edge list is taken as signed: a negative one has the node count added to it (`wrap`), as array indexing does.
  One aggregation (`agg`) gathers each message's source row of a [100000, 16] feature array, scales it by the message's
  coefficient and sums the messages of each destination node.

  `gcn` is the two-layer network: aggregate (x · W1), add b1, rectify, multiply by W2, aggregate, add b2 — with the three
  dense stages taken from the layer specification (`lin`, `reluLin`, `addBias`) and the biases as [1, 16] rows.
-/
import proofs.«117412_j22462678958349_1_alg».proof.Proof.Gen.KernelIdeal
import proofs.«117412_j22462678958349_1_alg».proof.Proof.LayerSpec

noncomputable section

namespace Cert.Gcn

open Idealize.ShloMosaic Cert.KernelIdeal Cert.KernelIdeal.Facts₀ Cert.KernelIdeal.Facts

/-- Row `0` of the edge list, then every node once: where each message comes from. -/
def srcOf (e : IVec S2x6400000 32) : IVec S6500000 32 :=
  concatenate S6500000 0
    [⟨S6400000, shapeCast S6400000 (extractStridedSlice S1x6400000 ![0, 0] e slices_S2x6400000_S1x6400000_0_0)
        shapeCasts_S1x6400000_S6400000⟩,
     ⟨S100000, iotaInDim S100000 32 0⟩]
    concatenates_S6400000_S100000_S6500000_d0

/-- Row `1` of the edge list, then every node once: where each message goes. -/
def dstOf (e : IVec S2x6400000 32) : IVec S6500000 32 :=
  concatenate S6500000 0
    [⟨S6400000, shapeCast S6400000 (extractStridedSlice S1x6400000 ![1, 0] e slices_S2x6400000_S1x6400000_1_0)
        shapeCasts_S1x6400000_S6400000⟩,
     ⟨S100000, iotaInDim S100000 32 0⟩]
    concatenates_S6400000_S100000_S6500000_d0

/-- A node's degree: one unit summed in for every message that arrives at it. -/
def deg (d : IVec S6500000 32) : FVec Ideal S100000 .f32 :=
  Host.scatterAdd scatter_S100000_S6500000x1_S6500000_n_0_0_1
    (broadcastInDim S100000 ![] bcast_S_S100000 (constant (F := Ideal) S_ .f32 0x00000000#32))
    (broadcastInDim S6500000x1 ![0] bcast_S6500000_S6500000x1_0 d)
    (broadcastInDim S6500000 ![] bcast_S_S6500000 (constant (F := Ideal) S_ .f32 0x3F800000#32))

/-- degree^(-1/2) where the degree is positive, 0 elsewhere. -/
def dinv (g : FVec Ideal S100000 .f32) : FVec Ideal S100000 .f32 :=
  select (cmpf .ogt g (broadcastInDim S100000 ![] bcast_S_S100000 (constant (F := Ideal) S_ .f32 0x00000000#32)))
    (Host.rsqrt g)
    (broadcastInDim S100000 ![] bcast_S_S100000 (constant (F := Ideal) S_ .f32 0x00000000#32))

/-- A signed node index made non-negative: the node count is added to a negative one. -/
def wrap (s : IVec S6500000 32) : IVec S6500000 32 :=
  select (cmpi .slt s (broadcastInDim S6500000 ![] bcast_S_S6500000 (constantI S_ 32 0#32)))
    (addi s (broadcastInDim S6500000 ![] bcast_S_S6500000 (constantI S_ 32 100000#32))) s

/-- Message e's coefficient: v[src e] · v[dst e] for a per-node vector v. -/
def coefOf (v : FVec Ideal S100000 .f32) (s d : IVec S6500000 32) : FVec Ideal S6500000 .f32 :=
  mulf
    (Host.gather gather_S100000_S6500000x1_S6500000_n_0_n_n_0_1_1 v
      (broadcastInDim S6500000x1 ![0] bcast_S6500000_S6500000x1_0 (wrap s)))
    (Host.gather gather_S100000_S6500000x1_S6500000_n_0_n_n_0_1_1 v
      (broadcastInDim S6500000x1 ![0] bcast_S6500000_S6500000x1_0 (wrap d)))

/-- One aggregation: each message's source row of `h`, scaled by the message's coefficient, summed into the
    message's destination row. -/
def agg (cf : FVec Ideal S6500000 .f32) (s d : IVec S6500000 32) (h : FVec Ideal S100000x16 .f32) :
    FVec Ideal S100000x16 .f32 :=
  Host.scatterAdd scatter_S100000x16_S6500000x1_S6500000x16_1_0_0_1
    (broadcastInDim S100000x16 ![] bcast_S_S100000x16 (constant (F := Ideal) S_ .f32 0x00000000#32))
    (broadcastInDim S6500000x1 ![0] bcast_S6500000_S6500000x1_0 d)
    (mulf
      (broadcastInDim S6500000x16 ![0, 1] bcast_S6500000x1_S6500000x16_0_1
        (broadcastInDim S6500000x1 ![0] bcast_S6500000_S6500000x1_0 cf))
      (Host.gather gather_S100000x16_S6500000x1_S6500000x16_1_0_n_n_0_1_116 h
        (broadcastInDim S6500000x1 ![0] bcast_S6500000_S6500000x1_0 (wrap s))))

/-- A 16-vector as a [1, 16] row. -/
def rowOf (b : FVec Ideal S16 .f32) : FVec Ideal S1x16 .f32 := shapeCast S1x16 b shapeCasts_S16_S1x16

/-- The coefficients of all messages, from the edge list alone. -/
def coefs (e : IVec S2x6400000 32) : FVec Ideal S6500000 .f32 :=
  coefOf (dinv (deg (dstOf e))) (srcOf e) (dstOf e)

/-- The two-layer network. -/
def gcn (x : FVec Ideal S100000x512 .f32) (e : IVec S2x6400000 32) (w1 : FVec Ideal S512x16 .f32)
    (b1 : FVec Ideal S16 .f32) (w2 : FVec Ideal S16x16 .f32) (b2 : FVec Ideal S16 .f32) : FVec Ideal S100000x16 .f32 :=
  addBias
    (agg (coefs e) (srcOf e) (dstOf e)
      (reluLin (agg (coefs e) (srcOf e) (dstOf e) (lin x w1)) (rowOf b1) w2))
    (rowOf b2)

end Cert.Gcn

end
-- ==== Proof.KernelHost.lean ====
/-
  The idealized kernel program's five stretches of host operations, each read over an ARBITRARY valuation of the
  buffers: what a stretch leaves in the buffers later stages read, as the sparse-stage functions of what it found, and
  which buffers it leaves alone. (Stretch 0: the messages' endpoints, the degrees, their reciprocal roots. The three
  operations of the outlined selection. Stretch 0-2: the coefficients. Stretches 1 and 2: one aggregation each and the
  bias as a row.)
-/
import proofs.«117412_j22462678958349_1_alg».proof.Proof.Gen.KernelIdeal.Launch
import proofs.«117412_j22462678958349_1_alg».proof.Proof.Glue
import Idealize.ShloMosaic.Lib.StableHlo.Run

set_option maxRecDepth 16384

noncomputable section

namespace Cert.Gcn.KernelHost

open Cert.Gcn Cert.KernelIdeal Cert.KernelIdeal.Gen Cert.KernelIdeal.Facts₀
open Idealize.ShloMosaic Idealize.ShloMosaic.TcCoe Idealize.ShloMosaic.StableHlo Idealize.SL.Sem

variable (W : Valuation τ sig (Elt Ideal))

/-! ## Stretch 0: endpoints, degrees, reciprocal roots -/

theorem s0_src : after (hostOps0 (F := Ideal)) W (Proc.devRef .tc main_v3) = srcOf (W (Proc.devRef .tc main_arg1)) := by
  after_results; rfl
theorem s0_dst : after (hostOps0 (F := Ideal)) W (Proc.devRef .tc main_v6) = dstOf (W (Proc.devRef .tc main_arg1)) := by
  after_results; rfl
theorem s0_pos : after (hostOps0 (F := Ideal)) W (Proc.devRef .tc main_v12)
    = cmpf .ogt (deg (dstOf (W (Proc.devRef .tc main_arg1))))
        (broadcastInDim S100000 ![] Facts₀.bcast_S_S100000 (constant (F := Ideal) S_ .f32 0x00000000#32)) := by
  after_results; rfl
theorem s0_rsqrt : after (hostOps0 (F := Ideal)) W (Proc.devRef .tc main_v13) = Host.rsqrt (deg (dstOf (W (Proc.devRef .tc main_arg1)))) := by
  after_results; rfl
theorem s0_zero : after (hostOps0 (F := Ideal)) W (Proc.devRef .tc main_cst_2) = constant (F := Ideal) S_ .f32 0x00000000#32 := by
  after_results
theorem s0_keep_arg0 : after (hostOps0 (F := Ideal)) W (Proc.devRef .tc main_arg0) = W (Proc.devRef .tc main_arg0) := by after_results
theorem s0_keep_arg2 : after (hostOps0 (F := Ideal)) W (Proc.devRef .tc main_arg2) = W (Proc.devRef .tc main_arg2) := by after_results
theorem s0_keep_arg3 : after (hostOps0 (F := Ideal)) W (Proc.devRef .tc main_arg3) = W (Proc.devRef .tc main_arg3) := by after_results
theorem s0_keep_arg4 : after (hostOps0 (F := Ideal)) W (Proc.devRef .tc main_arg4) = W (Proc.devRef .tc main_arg4) := by after_results
theorem s0_keep_arg5 : after (hostOps0 (F := Ideal)) W (Proc.devRef .tc main_arg5) = W (Proc.devRef .tc main_arg5) := by after_results

/-! ## The outlined selection -/

theorem s01_dinv : after (hostOps0_1 (F := Ideal)) W (Proc.devRef .tc main_v14)
    = select (W (Proc.devRef .tc main_v12)) (W (Proc.devRef .tc main_v13))
        (broadcastInDim S100000 ![] Facts₀.bcast_S_S100000 (W (Proc.devRef .tc main_cst_2))) := by
  after_results; rfl
theorem s01_keep_v3 : after (hostOps0_1 (F := Ideal)) W (Proc.devRef .tc main_v3) = W (Proc.devRef .tc main_v3) := by after_results
theorem s01_keep_v6 : after (hostOps0_1 (F := Ideal)) W (Proc.devRef .tc main_v6) = W (Proc.devRef .tc main_v6) := by after_results
theorem s01_keep_arg0 : after (hostOps0_1 (F := Ideal)) W (Proc.devRef .tc main_arg0) = W (Proc.devRef .tc main_arg0) := by after_results
theorem s01_keep_arg2 : after (hostOps0_1 (F := Ideal)) W (Proc.devRef .tc main_arg2) = W (Proc.devRef .tc main_arg2) := by after_results
theorem s01_keep_arg3 : after (hostOps0_1 (F := Ideal)) W (Proc.devRef .tc main_arg3) = W (Proc.devRef .tc main_arg3) := by after_results
theorem s01_keep_arg4 : after (hostOps0_1 (F := Ideal)) W (Proc.devRef .tc main_arg4) = W (Proc.devRef .tc main_arg4) := by after_results
theorem s01_keep_arg5 : after (hostOps0_1 (F := Ideal)) W (Proc.devRef .tc main_arg5) = W (Proc.devRef .tc main_arg5) := by after_results

/-! ## Stretch 0-2: the coefficients -/

theorem s02_coef : after (hostOps0_2 (F := Ideal)) W (Proc.devRef .tc main_v29)
    = coefOf (W (Proc.devRef .tc main_v14)) (W (Proc.devRef .tc main_v3)) (W (Proc.devRef .tc main_v6)) := by
  after_results_simp; rfl
theorem s02_keep_v3 : after (hostOps0_2 (F := Ideal)) W (Proc.devRef .tc main_v3) = W (Proc.devRef .tc main_v3) := by after_results
theorem s02_keep_v6 : after (hostOps0_2 (F := Ideal)) W (Proc.devRef .tc main_v6) = W (Proc.devRef .tc main_v6) := by after_results
theorem s02_keep_arg0 : after (hostOps0_2 (F := Ideal)) W (Proc.devRef .tc main_arg0) = W (Proc.devRef .tc main_arg0) := by after_results
theorem s02_keep_arg2 : after (hostOps0_2 (F := Ideal)) W (Proc.devRef .tc main_arg2) = W (Proc.devRef .tc main_arg2) := by after_results
theorem s02_keep_arg3 : after (hostOps0_2 (F := Ideal)) W (Proc.devRef .tc main_arg3) = W (Proc.devRef .tc main_arg3) := by after_results
theorem s02_keep_arg4 : after (hostOps0_2 (F := Ideal)) W (Proc.devRef .tc main_arg4) = W (Proc.devRef .tc main_arg4) := by after_results
theorem s02_keep_arg5 : after (hostOps0_2 (F := Ideal)) W (Proc.devRef .tc main_arg5) = W (Proc.devRef .tc main_arg5) := by after_results

/-! ## Stretch 1: the first aggregation -/

theorem s1_agg : after (hostOps1 (F := Ideal)) W (Proc.devRef .tc main_v43)
    = agg (W (Proc.devRef .tc main_v29)) (W (Proc.devRef .tc main_v3)) (W (Proc.devRef .tc main_v6)) (W (Proc.devRef .tc main_v30)) := by
  after_results_simp; rfl
theorem s1_row : after (hostOps1 (F := Ideal)) W (Proc.devRef .tc main_v44) = rowOf (W (Proc.devRef .tc main_arg3)) := by
  after_results; rfl
theorem s1_keep_v3 : after (hostOps1 (F := Ideal)) W (Proc.devRef .tc main_v3) = W (Proc.devRef .tc main_v3) := by after_results
theorem s1_keep_v6 : after (hostOps1 (F := Ideal)) W (Proc.devRef .tc main_v6) = W (Proc.devRef .tc main_v6) := by after_results
theorem s1_keep_v29 : after (hostOps1 (F := Ideal)) W (Proc.devRef .tc main_v29) = W (Proc.devRef .tc main_v29) := by after_results
theorem s1_keep_arg4 : after (hostOps1 (F := Ideal)) W (Proc.devRef .tc main_arg4) = W (Proc.devRef .tc main_arg4) := by after_results
theorem s1_keep_arg5 : after (hostOps1 (F := Ideal)) W (Proc.devRef .tc main_arg5) = W (Proc.devRef .tc main_arg5) := by after_results

/-! ## Stretch 2: the second aggregation -/

theorem s2_agg : after (hostOps2 (F := Ideal)) W (Proc.devRef .tc main_v58)
    = agg (W (Proc.devRef .tc main_v29)) (W (Proc.devRef .tc main_v3)) (W (Proc.devRef .tc main_v6)) (W (Proc.devRef .tc main_v45)) := by
  after_results_simp; rfl
theorem s2_row : after (hostOps2 (F := Ideal)) W (Proc.devRef .tc main_v59) = rowOf (W (Proc.devRef .tc main_arg5)) := by
  after_results; rfl

end Cert.Gcn.KernelHost

end
-- ==== Proof.KernelValue.lean ====
/-
  The idealized kernel program's result as the network of its arguments. The buffers' contents at the program's nine
  boundaries (`W0` … `W8`: the launch memory, then after each stretch of host operations and after each dense stage) are
  followed from the launch to the return: the endpoints and coefficients of the messages are fixed by the first three
  stretches and kept by everything after; each dense stage leaves its whole-array function of what it found (the three
  hypotheses `h0`, `h1`, `h2`: the blocks a stage writes tile the 100000 rows); each later stretch is one aggregation.
-/
import proofs.«117412_j22462678958349_1_alg».proof.Proof.Gen.KernelIdeal.Frame
import proofs.«117412_j22462678958349_1_alg».proof.Proof.KernelHost

set_option maxRecDepth 16384

noncomputable section

namespace Cert.Gcn.KernelValue

open Cert.Gcn Cert.Gcn.KernelHost Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch -/

theorem b1_src : W1 m ρ c (Proc.devRef .tc main_v3) = srcOf (m ((c : Thread nD τ).loc main_arg1)) := s0_src (W0 m ρ c)
theorem b1_dst : W1 m ρ c (Proc.devRef .tc main_v6) = dstOf (m ((c : Thread nD τ).loc main_arg1)) := s0_dst (W0 m ρ c)
theorem b1_pos : W1 m ρ c (Proc.devRef .tc main_v12)
    = cmpf .ogt (deg (dstOf (m ((c : Thread nD τ).loc main_arg1))))
        (broadcastInDim S100000 ![] Facts₀.bcast_S_S100000 (constant (F := Ideal) S_ .f32 0x00000000#32)) := s0_pos (W0 m ρ c)
theorem b1_rsqrt : W1 m ρ c (Proc.devRef .tc main_v13) = Host.rsqrt (deg (dstOf (m ((c : Thread nD τ).loc main_arg1)))) := s0_rsqrt (W0 m ρ c)
theorem b1_zero : W1 m ρ c (Proc.devRef .tc main_cst_2) = constant (F := Ideal) S_ .f32 0x00000000#32 := s0_zero (W0 m ρ c)

/-! ## After the outlined selection -/

theorem b2_src : W2 m ρ c (Proc.devRef .tc main_v3) = srcOf (m ((c : Thread nD τ).loc main_arg1)) := (s01_keep_v3 (W1 m ρ c)).trans (b1_src m ρ c)
theorem b2_dst : W2 m ρ c (Proc.devRef .tc main_v6) = dstOf (m ((c : Thread nD τ).loc main_arg1)) := (s01_keep_v6 (W1 m ρ c)).trans (b1_dst m ρ c)
theorem b2_dinv : W2 m ρ c (Proc.devRef .tc main_v14) = dinv (deg (dstOf (m ((c : Thread nD τ).loc main_arg1)))) := by
  refine (s01_dinv (W1 m ρ c)).trans ?_
  rw [b1_pos, b1_rsqrt, b1_zero]; rfl

/-! ## At the first dense stage's entry -/

theorem b3_src : W3 m ρ c (Proc.devRef .tc main_v3) = srcOf (m ((c : Thread nD τ).loc main_arg1)) := (s02_keep_v3 (W2 m ρ c)).trans (b2_src m ρ c)
theorem b3_dst : W3 m ρ c (Proc.devRef .tc main_v6) = dstOf (m ((c : Thread nD τ).loc main_arg1)) := (s02_keep_v6 (W2 m ρ c)).trans (b2_dst m ρ c)
theorem b3_coef : W3 m ρ c (Proc.devRef .tc main_v29) = coefs (m ((c : Thread nD τ).loc main_arg1)) := by
  refine (s02_coef (W2 m ρ c)).trans ?_
  rw [b2_dinv, b2_src, b2_dst]; rfl
theorem b3_arg0 : W3 m ρ c (Proc.devRef .tc main_arg0) = m ((c : Thread nD τ).loc main_arg0) :=
  (s02_keep_arg0 (W2 m ρ c)).trans ((s01_keep_arg0 (W1 m ρ c)).trans (s0_keep_arg0 (W0 m ρ c)))
theorem b3_arg2 : W3 m ρ c (Proc.devRef .tc main_arg2) = m ((c : Thread nD τ).loc main_arg2) :=
  (s02_keep_arg2 (W2 m ρ c)).trans ((s01_keep_arg2 (W1 m ρ c)).trans (s0_keep_arg2 (W0 m ρ c)))
theorem b3_arg3 : W3 m ρ c (Proc.devRef .tc main_arg3) = m ((c : Thread nD τ).loc main_arg3) :=
  (s02_keep_arg3 (W2 m ρ c)).trans ((s01_keep_arg3 (W1 m ρ c)).trans (s0_keep_arg3 (W0 m ρ c)))
theorem b3_arg4 : W3 m ρ c (Proc.devRef .tc main_arg4) = m ((c : Thread nD τ).loc main_arg4) :=
  (s02_keep_arg4 (W2 m ρ c)).trans ((s01_keep_arg4 (W1 m ρ c)).trans (s0_keep_arg4 (W0 m ρ c)))
theorem b3_arg5 : W3 m ρ c (Proc.devRef .tc main_arg5) = m ((c : Thread nD τ).loc main_arg5) :=
  (s02_keep_arg5 (W2 m ρ c)).trans ((s01_keep_arg5 (W1 m ρ c)).trans (s0_keep_arg5 (W0 m ρ c)))

section Stages

variable
  (h0 : ∀ (V : (c : Dev nD) → (b : Ref sig .tc) → Buf (Elt Ideal) ((c : Thread nD τ).loc b)) (c : Dev nD),
    (dat0 (F := Ideal) V c).arrAt 2 cfg0.N = lin (V c main_arg0) (V c main_arg2))
  (h1 : ∀ (V : (c : Dev nD) → (b : Ref sig .tc) → Buf (Elt Ideal) ((c : Thread nD τ).loc b)) (c : Dev nD),
    (dat1 (F := Ideal) V c).arrAt 3 cfg1.N = reluLin (V c main_v43) (V c main_v44) (V c main_arg4))
  (h2 : ∀ (V : (c : Dev nD) → (b : Ref sig .tc) → Buf (Elt Ideal) ((c : Thread nD τ).loc b)) (c : Dev nD),
    (dat2 (F := Ideal) V c).arrAt 2 cfg2.N = addBias (V c main_v58) (V c main_v59))

/-! ## At the first dense stage's exit -/

include h0 in
theorem b4_lin : W4 m ρ c (Proc.devRef .tc main_v30) = lin (m ((c : Thread nD τ).loc main_arg0)) (m ((c : Thread nD τ).loc main_arg2)) := by
  refine (W4_arr m ρ c 2).trans ((h0 (V3 m ρ) c).trans ?_)
  show lin (W3 m ρ c (Proc.devRef .tc main_arg0)) (W3 m ρ c (Proc.devRef .tc main_arg2)) = _
  rw [b3_arg0, b3_arg2]
theorem b4_src : W4 m ρ c (Proc.devRef .tc main_v3) = srcOf (m ((c : Thread nD τ).loc main_arg1)) := (W4_of_ne m ρ c main_v3 (by decide)).trans (b3_src m ρ c)
theorem b4_dst : W4 m ρ c (Proc.devRef .tc main_v6) = dstOf (m ((c : Thread nD τ).loc main_arg1)) := (W4_of_ne m ρ c main_v6 (by decide)).trans (b3_dst m ρ c)
theorem b4_coef : W4 m ρ c (Proc.devRef .tc main_v29) = coefs (m ((c : Thread nD τ).loc main_arg1)) := (W4_of_ne m ρ c main_v29 (by decide)).trans (b3_coef m ρ c)
theorem b4_arg3 : W4 m ρ c (Proc.devRef .tc main_arg3) = m ((c : Thread nD τ).loc main_arg3) := (W4_of_ne m ρ c main_arg3 (by decide)).trans (b3_arg3 m ρ c)
theorem b4_arg4 : W4 m ρ c (Proc.devRef .tc main_arg4) = m ((c : Thread nD τ).loc main_arg4) := (W4_of_ne m ρ c main_arg4 (by decide)).trans (b3_arg4 m ρ c)
theorem b4_arg5 : W4 m ρ c (Proc.devRef .tc main_arg5) = m ((c : Thread nD τ).loc main_arg5) := (W4_of_ne m ρ c main_arg5 (by decide)).trans (b3_arg5 m ρ c)

/-! ## At the second dense stage's entry -/

include h0 in
theorem b5_agg : W5 m ρ c (Proc.devRef .tc main_v43)
    = agg (coefs (m ((c : Thread nD τ).loc main_arg1))) (srcOf (m ((c : Thread nD τ).loc main_arg1))) (dstOf (m ((c : Thread nD τ).loc main_arg1))) (lin (m ((c : Thread nD τ).loc main_arg0)) (m ((c : Thread nD τ).loc main_arg2))) := by
  refine (s1_agg (W4 m ρ c)).trans ?_
  rw [b4_coef, b4_src, b4_dst, b4_lin m ρ c h0]
theorem b5_row : W5 m ρ c (Proc.devRef .tc main_v44) = rowOf (m ((c : Thread nD τ).loc main_arg3)) := by
  refine (s1_row (W4 m ρ c)).trans ?_
  rw [b4_arg3]
theorem b5_src : W5 m ρ c (Proc.devRef .tc main_v3) = srcOf (m ((c : Thread nD τ).loc main_arg1)) := (s1_keep_v3 (W4 m ρ c)).trans (b4_src m ρ c)
theorem b5_dst : W5 m ρ c (Proc.devRef .tc main_v6) = dstOf (m ((c : Thread nD τ).loc main_arg1)) := (s1_keep_v6 (W4 m ρ c)).trans (b4_dst m ρ c)
theorem b5_coef : W5 m ρ c (Proc.devRef .tc main_v29) = coefs (m ((c : Thread nD τ).loc main_arg1)) := (s1_keep_v29 (W4 m ρ c)).trans (b4_coef m ρ c)
theorem b5_arg4 : W5 m ρ c (Proc.devRef .tc main_arg4) = m ((c : Thread nD τ).loc main_arg4) := (s1_keep_arg4 (W4 m ρ c)).trans (b4_arg4 m ρ c)
theorem b5_arg5 : W5 m ρ c (Proc.devRef .tc main_arg5) = m ((c : Thread nD τ).loc main_arg5) := (s1_keep_arg5 (W4 m ρ c)).trans (b4_arg5 m ρ c)

/-! ## At the second dense stage's exit -/

include h0 h1 in
theorem b6_hidden : W6 m ρ c (Proc.devRef .tc main_v45)
    = reluLin (agg (coefs (m ((c : Thread nD τ).loc main_arg1))) (srcOf (m ((c : Thread nD τ).loc main_arg1))) (dstOf (m ((c : Thread nD τ).loc main_arg1))) (lin (m ((c : Thread nD τ).loc main_arg0)) (m ((c : Thread nD τ).loc main_arg2))))
        (rowOf (m ((c : Thread nD τ).loc main_arg3))) (m ((c : Thread nD τ).loc main_arg4)) := by
  refine (W6_arr m ρ c 3).trans ((h1 (V5 m ρ) c).trans ?_)
  show reluLin (W5 m ρ c (Proc.devRef .tc main_v43)) (W5 m ρ c (Proc.devRef .tc main_v44)) (W5 m ρ c (Proc.devRef .tc main_arg4)) = _
  rw [b5_agg m ρ c h0, b5_row, b5_arg4]
theorem b6_src : W6 m ρ c (Proc.devRef .tc main_v3) = srcOf (m ((c : Thread nD τ).loc main_arg1)) := (W6_of_ne m ρ c main_v3 (by decide)).trans (b5_src m ρ c)
theorem b6_dst : W6 m ρ c (Proc.devRef .tc main_v6) = dstOf (m ((c : Thread nD τ).loc main_arg1)) := (W6_of_ne m ρ c main_v6 (by decide)).trans (b5_dst m ρ c)
theorem b6_coef : W6 m ρ c (Proc.devRef .tc main_v29) = coefs (m ((c : Thread nD τ).loc main_arg1)) := (W6_of_ne m ρ c main_v29 (by decide)).trans (b5_coef m ρ c)
theorem b6_arg5 : W6 m ρ c (Proc.devRef .tc main_arg5) = m ((c : Thread nD τ).loc main_arg5) := (W6_of_ne m ρ c main_arg5 (by decide)).trans (b5_arg5 m ρ c)

/-! ## At the return -/

include h0 h1 h2 in
/-- The result buffer at the last boundary is the network of the launch memory's arguments. -/
theorem result_eq : W8 m ρ c (Proc.devRef .tc main_v60)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ((h2 (V7 m ρ) c).trans ?_)
  show addBias (W7 m ρ c (Proc.devRef .tc main_v58)) (W7 m ρ c (Proc.devRef .tc main_v59)) = _
  rw [show W7 m ρ c (Proc.devRef .tc main_v58) = _ from s2_agg (W6 m ρ c), show W7 m ρ c (Proc.devRef .tc main_v59) = _ from s2_row (W6 m ρ c),
    b6_coef, b6_src, b6_dst, b6_hidden m ρ c h0 h1, b6_arg5]
  rfl

end Stages

end Cert.Gcn.KernelValue

end
-- ==== Proof.Region0.lean ====
/-
  The first layer's linear map, from blocks to the whole array. The stage tiles the 100000 rows in 50 blocks of
  2000; the block of rows at grid point t is rows 2000·t … 2000·t + 1999 of the [100000, 512] features, and the
  [512, 16] weight is the same block at every point. What a point writes back is its block of rows times the weight:
  entry (p, q) is the sum over the 512 features k of x[p, k] · w[k, q] — narrowing both factors to sixteen bits first
  changes nothing on the extended reals, and the product accumulates into zero. So the array the stage leaves is
  `lin` of the two arrays it was entered with, index by index.
-/
import proofs.«117412_j22462678958349_1_alg».proof.Proof.Gen.KernelIdeal.Frame
import proofs.«117412_j22462678958349_1_alg».proof.Proof.LayerSpec
import Idealize.ShloMosaic.Lib.Pipeline.Value
import Idealize.ShloMosaic.Lib.ValueIdx
import Idealize.ShloMosaic.PureOps.Ideal.Laws

set_option maxRecDepth 16384

noncomputable section

namespace Cert.Gcn

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a load or store of a whole staging buffer are zero on both axes. -/
theorem origin0 : (![0, 0] : Fin 2 → Nat) = fun _ => 0 := funext fun a => by fin_cases a <;> rfl

/-- Two reads multiplied, each moved along an equation of indices. -/
theorem mul_read {A B : Type} (a : A → EReal) (b : B → EReal) {i i' : A} {j j' : B} (h : i = i') (h' : j = j') :
    a i * b j = a i' * b j' := by rw [h, h']

/-- The stage's body at row p, column q of a block: the sum over the 512 features of the block's row p against the
    weight's column q. -/
theorem lin_block_apply (x0 : Vec Ideal S2000x512 .f32) (x1 : Vec Ideal S512x16 .f32) (p : Fin 2000) (q : Fin 16) :
    k0_pay1 x0 x1 (ix2 p q) = ∑ k : Fin 512, x0 (ix2 p k) * x1 (ix2 k q) := by
  unfold k0_pay1
  refine (Ideal.matmul_constant_zero_apply dot_S2000x512_S512x16_S2000x16_1_0_0_1_n_n none
    (truncf .bf16 x0 bitsLt_bf16_f32) (truncf .bf16 x1 bitsLt_bf16_f32) (ix2 p q)).trans ?_
  rw [← Equiv.sum_comp (contrEquiv1 dot_S2000x512_S512x16_S2000x16_1_0_0_1_n_n 512 rfl rfl).symm]
  refine Finset.sum_congr rfl fun k _ => ?_
  have hk := contrEquiv1_symm_val dot_S2000x512_S512x16_S2000x16_1_0_0_1_n_n 512 rfl rfl k
  have hl : dot_S2000x512_S512x16_S2000x16_1_0_0_1_n_n.lhsIdx (ix2 p q) ((contrEquiv1 _ 512 rfl rfl).symm k) = ix2 p k := by
    funext ax; apply Fin.ext
    match ax with
    | ⟨0, _⟩ => simp [DotDims.lhsIdx, dot_S2000x512_S512x16_S2000x16_1_0_0_1_n_n]; rfl
    | ⟨1, _⟩ => simp [DotDims.lhsIdx, dot_S2000x512_S512x16_S2000x16_1_0_0_1_n_n]; exact hk
  have hr : dot_S2000x512_S512x16_S2000x16_1_0_0_1_n_n.rhsIdx (ix2 p q) ((contrEquiv1 _ 512 rfl rfl).symm k) = ix2 k q := by
    funext ax; apply Fin.ext
    match ax with
    | ⟨0, _⟩ => simp [DotDims.rhsIdx, dot_S2000x512_S512x16_S2000x16_1_0_0_1_n_n]; exact hk
    | ⟨1, _⟩ => simp [DotDims.rhsIdx, dot_S2000x512_S512x16_S2000x16_1_0_0_1_n_n]; rfl
  rw [hl, hr]
  rfl

/-- Where the blocks sit: at point t the row-blocked windows are at block (t, 0), the weight window at block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of `lin` of the two arrays the stage was entered with. -/
theorem flushed0_eq (c : Dev nD) (t : Fin cfg0.N) :
    (dat0 (F := Ideal) V c).flushed 2 t
      = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero origin0]
  simp only [View.ld_unit_zero (S := S2000x512) origin0, View.ld_unit_zero (S := S512x16) origin0]
  obtain ⟨e0, e1, e2, e3, e4, e5⟩ := blockIndex0 t
  funext j
  obtain ⟨p, q, rfl⟩ : ∃ (p : Fin 2000) (q : Fin 16), j = ix2 p q := ⟨j 0, j 1, eq_ix2 j⟩
  show k0_pay1 (iblk0 V c 0 t) (iblk0 V c 1 t) (ix2 p q)
    = lin (V c main_arg0) (V c main_arg2) (((cfg0.win 2).blk t).view.emb (ix2 p q))
  refine (lin_block_apply (iblk0 V c 0 t) (iblk0 V c 1 t) p q).trans ?_
  unfold lin
  refine Finset.sum_congr rfl fun k _ => ?_
  have h0 : ((cfg0.win 0).blk t).view.emb (ix2 p k)
      = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k q)
      = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  exact mul_read (V c main_arg0) (V c main_arg2) h0 h1

/-- An index of the array lies in point t's block iff, on each axis, its coordinate is in the block's range. -/
theorem mem_block0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Row r lies in the block of point r / 2000: the 50 blocks of 2000 rows cover the 100000 rows. -/
theorem covered0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 2000 < cfg0.N := by rw [show cfg0.N = 50 from N_0]; omega
  obtain ⟨-, -, -, -, e4, e5⟩ := blockIndex0 ⟨(i 0).val / 2000, ht⟩
  refine ⟨⟨(i 0).val / 2000, ht⟩, flush0_2 _, ?_⟩
  rw [mem_block0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 16 ≤ (i 1).val
      ∧ (i 1).val < win0_2.index ⟨(i 0).val / 2000, ht⟩ (1 : Fin 2) * 16 + 16
    rw [e5]; omega

/-- The array the first linear stage leaves: `lin` of the features and the weight it was entered with. -/
theorem arr0 (c : Dev nD) :
    (dat0 (F := Ideal) V c).arrAt 2 cfg0.N = lin (V c main_arg0) (V c main_arg2) :=
  (dat0 (F := Ideal) V c).arrAt_eq_of_cover 2 (lin (V c main_arg0) (V c main_arg2))
    (fun t _ => flushed0_eq V c t) covered0

end Cert.Gcn

end
-- ==== Proof.Region1.lean ====
/-
  The middle stage — bias, rectifier, second linear map — from blocks to the whole array. The stage tiles the
  100000 rows in 50 blocks of 2000; the block of rows at grid point t is rows 2000·t … 2000·t + 1999 of the
  [100000, 16] activations, and the [1, 16] bias row and the [16, 16] weight are the same blocks at every point.
  What a point writes back is, at entry (p, q), the sum over the 16 features k of max (a[p, k] + b[0, k]) 0 · w[k, q]
  — narrowing both factors to sixteen bits first changes nothing on the extended reals, and the product
  accumulates into zero. So the array the stage leaves is `reluLin` of the three arrays it was entered with, index
  by index.
-/
import proofs.«117412_j22462678958349_1_alg».proof.Proof.Gen.KernelIdeal.Frame
import proofs.«117412_j22462678958349_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a load or store of a whole staging buffer are zero on both axes. -/
theorem origin1 : (![0, 0] : Fin 2 → Nat) = fun _ => 0 := funext fun a => by fin_cases a <;> rfl

/-- A rectified sum of two reads times a third, each read moved along an equation of indices. -/
theorem relu_mul_read {A B C : Type} (a : A → EReal) (b : B → EReal) (w : C → EReal) {i i' : A} {j j' : B} {l l' : C}
    (h : i = i') (h' : j = j') (h'' : l = l') : max (a i + b j) 0 * w l = max (a i' + b j') 0 * w l' := by
  rw [h, h', h'']

/-- The stage's body at row p, column q of a block: the sum over the 16 features of the rectified, biased row p of
    the block against the weight's column q. -/
theorem reluLin_block_apply (x0 : Vec Ideal S2000x16 .f32) (x1 : Vec Ideal S1x16 .f32) (x2 : Vec Ideal S16x16 .f32)
    (p : Fin 2000) (q : Fin 16) :
    k1_pay1 x0 x1 x2 (ix2 p q) = ∑ k : Fin 16, max (x0 (ix2 p k) + x1 (ix2 (0 : Fin 1) k)) 0 * x2 (ix2 k q) := by
  unfold k1_pay1
  refine (Ideal.matmul_constant_zero_apply dot_S2000x16_S16x16_S2000x16_1_0_0_1_n_n none _ _ (ix2 p q)).trans ?_
  rw [← Equiv.sum_comp (contrEquiv1 dot_S2000x16_S16x16_S2000x16_1_0_0_1_n_n 16 rfl rfl).symm]
  refine Finset.sum_congr rfl fun k _ => ?_
  have hk := contrEquiv1_symm_val dot_S2000x16_S16x16_S2000x16_1_0_0_1_n_n 16 rfl rfl k
  have hl : dot_S2000x16_S16x16_S2000x16_1_0_0_1_n_n.lhsIdx (ix2 p q) ((contrEquiv1 _ 16 rfl rfl).symm k) = ix2 p k := by
    funext ax; apply Fin.ext
    match ax with
    | ⟨0, _⟩ => simp [DotDims.lhsIdx, dot_S2000x16_S16x16_S2000x16_1_0_0_1_n_n]; rfl
    | ⟨1, _⟩ => simp [DotDims.lhsIdx, dot_S2000x16_S16x16_S2000x16_1_0_0_1_n_n]; exact hk
  have hr : dot_S2000x16_S16x16_S2000x16_1_0_0_1_n_n.rhsIdx (ix2 p q) ((contrEquiv1 _ 16 rfl rfl).symm k) = ix2 k q := by
    funext ax; apply Fin.ext
    match ax with
    | ⟨0, _⟩ => simp [DotDims.rhsIdx, dot_S2000x16_S16x16_S2000x16_1_0_0_1_n_n]; exact hk
    | ⟨1, _⟩ => simp [DotDims.rhsIdx, dot_S2000x16_S16x16_S2000x16_1_0_0_1_n_n]; rfl
  rw [hl, hr, truncf_apply, truncf_apply, maximumf_apply, addf_apply, broadcast_apply, shapeCast_self, shapeCast_self,
    broadcastTo_1b_ab_apply]
  show max (x0 (ix2 p k) + x1 (ix2 (0 : Fin 1) k)) (Ideal.ofBits .f32 0x00000000#32) * x2 (ix2 k q) = _
  rw [Ideal.ofBits_zero_f32]

/-- Where the blocks sit: at point t the row-blocked windows are at block (t, 0), the bias and weight windows at
    block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of `reluLin` of the three arrays the stage was entered with. -/
theorem flushed1_eq (c : Dev nD) (t : Fin cfg1.N) :
    (dat1 (F := Ideal) V c).flushed 3 t
      = ((cfg1.win 3).blk t).view.read (Elt Ideal) (reluLin (V c main_v43) (V c main_v44) (V c main_arg4)) := by
  show (cfg1.win 3).cut (grid1.coords t) ((dat1 V c).after 3 t) = _
  rw [after1_3]
  unfold out1_3
  rw [View.canon_unit_zero origin1]
  simp only [View.ld_unit_zero (S := S2000x16) origin1, View.ld_unit_zero (S := S1x16) origin1,
    View.ld_unit_zero (S := S16x16) origin1]
  obtain ⟨e0, e1, e2, e3, e4, e5, e6, e7⟩ := blockIndex1 t
  funext j
  obtain ⟨p, q, rfl⟩ : ∃ (p : Fin 2000) (q : Fin 16), j = ix2 p q := ⟨j 0, j 1, eq_ix2 j⟩
  show k1_pay1 (iblk1 V c 0 t) (iblk1 V c 1 t) (iblk1 V c 2 t) (ix2 p q)
    = reluLin (V c main_v43) (V c main_v44) (V c main_arg4) (((cfg1.win 3).blk t).view.emb (ix2 p q))
  refine (reluLin_block_apply (iblk1 V c 0 t) (iblk1 V c 1 t) (iblk1 V c 2 t) p q).trans ?_
  unfold reluLin
  refine Finset.sum_congr rfl fun k _ => ?_
  have h0 : ((cfg1.win 0).blk t).view.emb (ix2 p k)
      = ix2 ((((cfg1.win 3).blk t).view.emb (ix2 p q)) 0) k := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 16 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have h2 : ((cfg1.win 2).blk t).view.emb (ix2 k q)
      = ix2 k ((((cfg1.win 3).blk t).view.emb (ix2 p q)) 1) := by
    funext a; apply Fin.ext
    match a with
    | ⟨0, _⟩ => show win1_2.index t (0 : Fin 2) * 16 + 1 * k.val = k.val; omega
    | ⟨1, _⟩ => show win1_2.index t (1 : Fin 2) * 16 + 1 * q.val = win1_3.index t (1 : Fin 2) * 16 + 1 * q.val; omega
  exact relu_mul_read (V c main_v43) (V c main_v44) (V c main_arg4) h0 h1 h2

/-- An index of the array lies in point t's block iff, on each axis, its coordinate is in the block's range. -/
theorem mem_block1 (t : Fin cfg1.N) (i : S100000x16.Idx) :
    i ∈ ((cfg1.win 3).blk t).view.set ↔ ∀ a : Fin 2, win1_3.index t a * S2000x16.size a ≤ (i a).val
      ∧ (i a).val < win1_3.index t a * S2000x16.size a + S2000x16.size a := by
  show i ∈ ((View.whole main_v45).slice (win1_3.rect t)).set ↔ _
  rw [View.set_slice_whole, Rect.mem_set_unit]
  exact Iff.rfl

/-- Row r lies in the block of point r / 2000: the 50 blocks of 2000 rows cover the 100000 rows. -/
theorem covered1 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have ht : (i 0).val / 2000 < cfg1.N := by rw [show cfg1.N = 50 from N_1]; omega
  obtain ⟨-, -, -, -, -, -, e6, e7⟩ := blockIndex1 ⟨(i 0).val / 2000, ht⟩
  refine ⟨⟨(i 0).val / 2000, ht⟩, flush1_3 _, ?_⟩
  rw [mem_block1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 16 ≤ (i 1).val
      ∧ (i 1).val < win1_3.index ⟨(i 0).val / 2000, ht⟩ (1 : Fin 2) * 16 + 16
    rw [e7]; omega

/-- The array the middle stage leaves: `reluLin` of the activations, the bias row and the weight it was entered
    with. -/
theorem arr1 (c : Dev nD) :
    (dat1 (F := Ideal) V c).arrAt 3 cfg1.N = reluLin (V c main_v43) (V c main_v44) (V c main_arg4) :=
  (dat1 (F := Ideal) V c).arrAt_eq_of_cover 3 (reluLin (V c main_v43) (V c main_v44) (V c main_arg4))
    (fun t _ => flushed1_eq V c t) covered1

end Cert.Gcn

end
-- ==== Proof.Region2.lean ====
/-
  The closing bias stage, from blocks to the whole array. The stage tiles the 100000 rows in 50 blocks of 2000;
  the block of rows at grid point t is rows 2000·t … 2000·t + 1999, and the [1, 16] bias row is the same block at
  every point. What a point writes back is its block of rows with the bias row added along every row, so the array
  the stage leaves is `addBias` of the two arrays it was entered with, index by index.
-/
import proofs.«117412_j22462678958349_1_alg».proof.Proof.Gen.KernelIdeal.Frame
import proofs.«117412_j22462678958349_1_alg».proof.Proof.LayerSpec
import Idealize.ShloMosaic.Lib.Pipeline.Value
import Idealize.ShloMosaic.Lib.ValueIdx
import Idealize.ShloMosaic.Lib.ValueLayout

set_option maxRecDepth 16384

noncomputable section

namespace Cert.Gcn

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets of a load or store of a whole staging buffer are zero on both axes. -/
theorem origin2 : (![0, 0] : Fin 2 → Nat) = fun _ => 0 := funext fun a => by fin_cases a <;> rfl

/-- Two reads added, each moved along an equation of indices. -/
theorem add_read {A B : Type} (a : A → EReal) (b : B → EReal) {i i' : A} {j j' : B} (h : i = i') (h' : j = j') :
    a i + b j = a i' + b j' := by rw [h, h']

/-- The stage's body at row p, column q of a block: the block's entry plus the bias row's entry in column q. -/
theorem addBias_block_apply (x0 : Vec Ideal S2000x16 .f32) (x1 : Vec Ideal S1x16 .f32) (p : Fin 2000) (q : Fin 16) :
    k2_pay1 x0 x1 (ix2 p q) = x0 (ix2 p q) + x1 (ix2 (0 : Fin 1) q) := by
  unfold k2_pay1
  rw [addf_apply, shapeCast_self, shapeCast_self, broadcastTo_1b_ab_apply]

/-- Where the blocks sit: at point t the row-blocked windows are at block (t, 0), the bias window at block (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of `addBias` of the two arrays the stage was entered with. -/
theorem flushed2_eq (c : Dev nD) (t : Fin cfg2.N) :
    (dat2 (F := Ideal) V c).flushed 2 t
      = ((cfg2.win 2).blk t).view.read (Elt Ideal) (addBias (V c main_v58) (V c main_v59)) := by
  show (cfg2.win 2).cut (grid2.coords t) ((dat2 V c).after 2 t) = _
  rw [after2_2]
  unfold out2_2
  rw [View.canon_unit_zero origin2]
  simp only [View.ld_unit_zero (S := S2000x16) origin2, View.ld_unit_zero (S := S1x16) origin2]
  obtain ⟨e0, e1, e2, e3, e4, e5⟩ := blockIndex2 t
  funext j
  obtain ⟨p, q, rfl⟩ : ∃ (p : Fin 2000) (q : Fin 16), j = ix2 p q := ⟨j 0, j 1, eq_ix2 j⟩
  show k2_pay1 (iblk2 V c 0 t) (iblk2 V c 1 t) (ix2 p q)
    = addBias (V c main_v58) (V c main_v59) (((cfg2.win 2).blk t).view.emb (ix2 p q))
  have h0 : ((cfg2.win 0).blk t).view.emb (ix2 p q) = ((cfg2.win 2).blk t).view.emb (ix2 p q) := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 16 + 1 * q.val = win2_2.index t (1 : Fin 2) * 16 + 1 * q.val; omega
  have h1 : ((cfg2.win 1).blk t).view.emb (ix2 (0 : Fin 1) q)
      = ix2 (0 : Fin 1) ((((cfg2.win 2).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 16 + 1 * q.val = win2_2.index t (1 : Fin 2) * 16 + 1 * q.val; omega
  refine (addBias_block_apply (iblk2 V c 0 t) (iblk2 V c 1 t) p q).trans ?_
  exact add_read (V c main_v58) (V c main_v59) h0 h1

/-- An index of the array lies in point t's block iff, on each axis, its coordinate is in the block's range. -/
theorem mem_block2 (t : Fin cfg2.N) (i : S100000x16.Idx) :
    i ∈ ((cfg2.win 2).blk t).view.set ↔ ∀ a : Fin 2, win2_2.index t a * S2000x16.size a ≤ (i a).val
      ∧ (i a).val < win2_2.index t a * S2000x16.size a + S2000x16.size a := by
  show i ∈ ((View.whole main_v60).slice (win2_2.rect t)).set ↔ _
  rw [View.set_slice_whole, Rect.mem_set_unit]
  exact Iff.rfl

/-- Row r lies in the block of point r / 2000: the 50 blocks of 2000 rows cover the 100000 rows. -/
theorem covered2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have ht : (i 0).val / 2000 < cfg2.N := by rw [show cfg2.N = 50 from N_2]; omega
  obtain ⟨-, -, -, -, e4, e5⟩ := blockIndex2 ⟨(i 0).val / 2000, ht⟩
  refine ⟨⟨(i 0).val / 2000, ht⟩, flush2_2 _, ?_⟩
  rw [mem_block2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 16 ≤ (i 1).val
      ∧ (i 1).val < win2_2.index ⟨(i 0).val / 2000, ht⟩ (1 : Fin 2) * 16 + 16
    rw [e5]; omega

/-- The array the closing bias stage leaves: `addBias` of the rows array and the bias row it was entered with. -/
theorem arr2 (c : Dev nD) :
    (dat2 (F := Ideal) V c).arrAt 2 cfg2.N = addBias (V c main_v58) (V c main_v59) :=
  (dat2 (F := Ideal) V c).arrAt_eq_of_cover 2 (addBias (V c main_v58) (V c main_v59))
    (fun t _ => flushed2_eq V c t) covered2

end Cert.Gcn

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefRun.lean ====
/-
  The idealized reference program is a straight line of 83 host operations (the two outlined functions' operations
  standing at their call sites). Its run: every weakly fair execution terminates, and every buffer ends at the fold of
  the operations' results over the launch memory. The line is cut into five stretches — the messages' endpoints,
  degrees and reciprocal roots; the outlined selection; the coefficients; the first layer (product, aggregation, bias);
  the second layer (rectifier, product, aggregation, bias) — so that the fold can be read one stretch at a time.
-/
import proofs.«117412_j22462678958349_1_alg».proof.Proof.Gen.ReferenceIdeal
import Idealize.ShloMosaic.Lib.StableHlo.Run
import proofs.«117412_j22462678958349_1_alg».proof.Proof.LibAfterAppend

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Endpoints of the messages, degrees and their reciprocal roots: 18 operations. -/
abbrev endsOps : List (HloOp τ sig (Elt F)) :=
  [ nullary main_v0 (iotaInDim S100000 32 0),
    unary main_arg1 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6500000 0 [⟨S6400000, a⟩, ⟨S100000, b⟩] concatenates_S6400000_S100000_S6500000_d0) : (⟨S6400000, .i32⟩ : BufTy).Contents (Elt F) → (⟨S100000, .i32⟩ : BufTy).Contents (Elt F) → (⟨S6500000, .i32⟩ : BufTy).Contents (Elt F)),
    unary main_arg1 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6500000 0 [⟨S6400000, a⟩, ⟨S100000, b⟩] concatenates_S6400000_S100000_S6500000_d0) : (⟨S6400000, .i32⟩ : BufTy).Contents (Elt F) → (⟨S100000, .i32⟩ : BufTy).Contents (Elt F) → (⟨S6500000, .i32⟩ : BufTy).Contents (Elt F)),
    nullary main_cst (constant S_ .f32 0x3F800000#32),
    unary main_cst main_v7 (broadcastInDim S6500000 ![] bcast_S_S6500000 : (⟨S_, .f32⟩ : BufTy).Contents (Elt F) → (⟨S6500000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S6500000x1 ![0] bcast_S6500000_S6500000x1_0 : (⟨S6500000, .i32⟩ : BufTy).Contents (Elt F) → (⟨S6500000x1, .i32⟩ : BufTy).Contents (Elt F)),
    ternary main_v8 main_v9 main_v7 main_v10 ((fun x i u => Host.scatterAdd scatter_S100000_S6500000x1_S6500000_n_0_0_1 x i u) : (⟨S100000, .f32⟩ : BufTy).Contents (Elt F) → (⟨S6500000x1, .i32⟩ : BufTy).Contents (Elt F) → (⟨S6500000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The outlined selection (reciprocal root where the degree is positive, zero elsewhere): 3 operations. -/
abbrev selectOps : List (HloOp τ sig (Elt F)) :=
  [ TRef.unary (TRef.of (T := ⟨S_, .f32⟩) main_cst_2) (TRef.of (T := ⟨S_, .f32⟩) main_call0_v0) (id : (⟨S_, .f32⟩ : BufTy).Contents (Elt F) → (⟨S_, .f32⟩ : BufTy).Contents (Elt F)),
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The messages' coefficients: 19 operations. -/
abbrev coefOps : List (HloOp τ sig (Elt F)) :=
  [ nullary main_c (constantI S_ 32 0#32),
    unary main_c main_v15 (broadcastInDim S6500000 ![] bcast_S_S6500000 : (⟨S_, .i32⟩ : BufTy).Contents (Elt F) → (⟨S6500000, .i32⟩ : BufTy).Contents (Elt F)),
    binary main_v3 main_v15 main_v16 (cmpi .slt : (⟨S6500000, .i32⟩ : BufTy).Contents (Elt F) → (⟨S6500000, .i32⟩ : BufTy).Contents (Elt F) → (⟨S6500000, .i1⟩ : BufTy).Contents (Elt F)),
    nullary main_c_3 (constantI S_ 32 100000#32),
    unary main_c_3 main_v17 (broadcastInDim S6500000 ![] bcast_S_S6500000 : (⟨S_, .i32⟩ : BufTy).Contents (Elt F) → (⟨S6500000, .i32⟩ : BufTy).Contents (Elt F)),
    binary main_v3 main_v17 main_v18 (addi : (⟨S6500000, .i32⟩ : BufTy).Contents (Elt F) → (⟨S6500000, .i32⟩ : BufTy).Contents (Elt F) → (⟨S6500000, .i32⟩ : BufTy).Contents (Elt F)),
    ternary main_v16 main_v18 main_v3 main_v19 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v19 main_v20 (broadcastInDim S6500000x1 ![0] bcast_S6500000_S6500000x1_0 : (⟨S6500000, .i32⟩ : BufTy).Contents (Elt F) → (⟨S6500000x1, .i32⟩ : BufTy).Contents (Elt F)),
    binary main_v14 main_v20 main_v21 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    nullary main_c_4 (constantI S_ 32 0#32),
    unary main_c_4 main_v22 (broadcastInDim S6500000 ![] bcast_S_S6500000 : (⟨S_, .i32⟩ : BufTy).Contents (Elt F) → (⟨S6500000, .i32⟩ : BufTy).Contents (Elt F)),
    binary main_v6 main_v22 main_v23 (cmpi .slt : (⟨S6500000, .i32⟩ : BufTy).Contents (Elt F) → (⟨S6500000, .i32⟩ : BufTy).Contents (Elt F) → (⟨S6500000, .i1⟩ : BufTy).Contents (Elt F)),
    nullary main_c_5 (constantI S_ 32 100000#32),
    unary main_c_5 main_v24 (broadcastInDim S6500000 ![] bcast_S_S6500000 : (⟨S_, .i32⟩ : BufTy).Contents (Elt F) → (⟨S6500000, .i32⟩ : BufTy).Contents (Elt F)),
    binary main_v6 main_v24 main_v25 (addi : (⟨S6500000, .i32⟩ : BufTy).Contents (Elt F) → (⟨S6500000, .i32⟩ : BufTy).Contents (Elt F) → (⟨S6500000, .i32⟩ : BufTy).Contents (Elt F)),
    ternary main_v23 main_v25 main_v6 main_v26 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v26 main_v27 (broadcastInDim S6500000x1 ![0] bcast_S6500000_S6500000x1_0 : (⟨S6500000, .i32⟩ : BufTy).Contents (Elt F) → (⟨S6500000x1, .i32⟩ : BufTy).Contents (Elt F)),
    binary main_v14 main_v27 main_v28 ((fun x i => Host.gather gather_S100000_S6500000x1_S6500000_n_0_n_n_0_1_1 x i) : (⟨S100000, .f32⟩ : BufTy).Contents (Elt F) → (⟨S6500000x1, .i32⟩ : BufTy).Contents (Elt F) → (⟨S6500000, .f32⟩ : BufTy).Contents (Elt F)),
    binary main_v21 main_v28 main_v29 (mulf : (⟨S6500000, .f32⟩ : BufTy).Contents (Elt F) → (⟨S6500000, .f32⟩ : BufTy).Contents (Elt F) → (⟨S6500000, .f32⟩ : BufTy).Contents (Elt F)) ]

/-- The first layer: product with the first weight, aggregation, bias: 20 operations. -/
abbrev layer1Ops : List (HloOp τ sig (Elt F)) :=
  [ binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v29 main_v31 (broadcastInDim S6500000x1 ![0] bcast_S6500000_S6500000x1_0 : (⟨S6500000, .f32⟩ : BufTy).Contents (Elt F) → (⟨S6500000x1, .f32⟩ : BufTy).Contents (Elt F)),
    nullary main_c_6 (constantI S_ 32 0#32),
    unary main_c_6 main_v32 (broadcastInDim S6500000 ![] bcast_S_S6500000 : (⟨S_, .i32⟩ : BufTy).Contents (Elt F) → (⟨S6500000, .i32⟩ : BufTy).Contents (Elt F)),
    binary main_v3 main_v32 main_v33 (cmpi .slt : (⟨S6500000, .i32⟩ : BufTy).Contents (Elt F) → (⟨S6500000, .i32⟩ : BufTy).Contents (Elt F) → (⟨S6500000, .i1⟩ : BufTy).Contents (Elt F)),
    nullary main_c_7 (constantI S_ 32 100000#32),
    unary main_c_7 main_v34 (broadcastInDim S6500000 ![] bcast_S_S6500000 : (⟨S_, .i32⟩ : BufTy).Contents (Elt F) → (⟨S6500000, .i32⟩ : BufTy).Contents (Elt F)),
    binary main_v3 main_v34 main_v35 (addi : (⟨S6500000, .i32⟩ : BufTy).Contents (Elt F) → (⟨S6500000, .i32⟩ : BufTy).Contents (Elt F) → (⟨S6500000, .i32⟩ : BufTy).Contents (Elt F)),
    ternary main_v33 main_v35 main_v3 main_v36 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v36 main_v37 (broadcastInDim S6500000x1 ![0] bcast_S6500000_S6500000x1_0 : (⟨S6500000, .i32⟩ : BufTy).Contents (Elt F) → (⟨S6500000x1, .i32⟩ : BufTy).Contents (Elt F)),
    binary main_v30 main_v37 main_v38 ((fun x i => Host.gather gather_S100000x16_S6500000x1_S6500000x16_1_0_n_n_0_1_116 x i) : (⟨S100000x16, .f32⟩ : BufTy).Contents (Elt F) → (⟨S6500000x1, .i32⟩ : BufTy).Contents (Elt F) → (⟨S6500000x16, .f32⟩ : BufTy).Contents (Elt F)),
    unary main_v31 main_v39 (broadcastInDim S6500000x16 ![0, 1] bcast_S6500000x1_S6500000x16_0_1 : (⟨S6500000x1, .f32⟩ : BufTy).Contents (Elt F) → (⟨S6500000x16, .f32⟩ : BufTy).Contents (Elt F)),
    binary main_v39 main_v38 main_v40 (mulf : (⟨S6500000x16, .f32⟩ : BufTy).Contents (Elt F) → (⟨S6500000x16, .f32⟩ : BufTy).Contents (Elt F) → (⟨S6500000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S6500000x1 ![0] bcast_S6500000_S6500000x1_0 : (⟨S6500000, .i32⟩ : BufTy).Contents (Elt F) → (⟨S6500000x1, .i32⟩ : BufTy).Contents (Elt F)),
    ternary main_v41 main_v42 main_v40 main_v43 ((fun x i u => Host.scatterAdd scatter_S100000x16_S6500000x1_S6500000x16_1_0_0_1 x i u) : (⟨S100000x16, .f32⟩ : BufTy).Contents (Elt F) → (⟨S6500000x1, .i32⟩ : BufTy).Contents (Elt F) → (⟨S6500000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The second layer: rectifier, product with the second weight, aggregation, bias: 23 operations. -/
abbrev layer2Ops : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_v29 main_v49 (broadcastInDim S6500000x1 ![0] bcast_S6500000_S6500000x1_0 : (⟨S6500000, .f32⟩ : BufTy).Contents (Elt F) → (⟨S6500000x1, .f32⟩ : BufTy).Contents (Elt F)),
    nullary main_c_9 (constantI S_ 32 0#32),
    unary main_c_9 main_v50 (broadcastInDim S6500000 ![] bcast_S_S6500000 : (⟨S_, .i32⟩ : BufTy).Contents (Elt F) → (⟨S6500000, .i32⟩ : BufTy).Contents (Elt F)),
    binary main_v3 main_v50 main_v51 (cmpi .slt : (⟨S6500000, .i32⟩ : BufTy).Contents (Elt F) → (⟨S6500000, .i32⟩ : BufTy).Contents (Elt F) → (⟨S6500000, .i1⟩ : BufTy).Contents (Elt F)),
    nullary main_c_10 (constantI S_ 32 100000#32),
    unary main_c_10 main_v52 (broadcastInDim S6500000 ![] bcast_S_S6500000 : (⟨S_, .i32⟩ : BufTy).Contents (Elt F) → (⟨S6500000, .i32⟩ : BufTy).Contents (Elt F)),
    binary main_v3 main_v52 main_v53 (addi : (⟨S6500000, .i32⟩ : BufTy).Contents (Elt F) → (⟨S6500000, .i32⟩ : BufTy).Contents (Elt F) → (⟨S6500000, .i32⟩ : BufTy).Contents (Elt F)),
    ternary main_v51 main_v53 main_v3 main_v54 (select : (⟨S6500000, .i1⟩ : BufTy).Contents (Elt F) → (⟨S6500000, .i32⟩ : BufTy).Contents (Elt F) → (⟨S6500000, .i32⟩ : BufTy).Contents (Elt F) → (⟨S6500000, .i32⟩ : BufTy).Contents (Elt F)),
    unary main_v54 main_v55 (broadcastInDim S6500000x1 ![0] bcast_S6500000_S6500000x1_0 : (⟨S6500000, .i32⟩ : BufTy).Contents (Elt F) → (⟨S6500000x1, .i32⟩ : BufTy).Contents (Elt F)),
    binary main_v48 main_v55 main_v56 ((fun x i => Host.gather gather_S100000x16_S6500000x1_S6500000x16_1_0_n_n_0_1_116 x i) : (⟨S100000x16, .f32⟩ : BufTy).Contents (Elt F) → (⟨S6500000x1, .i32⟩ : BufTy).Contents (Elt F) → (⟨S6500000x16, .f32⟩ : BufTy).Contents (Elt F)),
    unary main_v49 main_v57 (broadcastInDim S6500000x16 ![0, 1] bcast_S6500000x1_S6500000x16_0_1 : (⟨S6500000x1, .f32⟩ : BufTy).Contents (Elt F) → (⟨S6500000x16, .f32⟩ : BufTy).Contents (Elt F)),
    binary main_v57 main_v56 main_v58 (mulf : (⟨S6500000x16, .f32⟩ : BufTy).Contents (Elt F) → (⟨S6500000x16, .f32⟩ : BufTy).Contents (Elt F) → (⟨S6500000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S6500000x1 ![0] bcast_S6500000_S6500000x1_0 : (⟨S6500000, .i32⟩ : BufTy).Contents (Elt F) → (⟨S6500000x1, .i32⟩ : BufTy).Contents (Elt F)),
    ternary main_v59 main_v60 main_v58 main_v61 ((fun x i u => Host.scatterAdd scatter_S100000x16_S6500000x1_S6500000x16_1_0_0_1 x i u) : (⟨S100000x16, .f32⟩ : BufTy).Contents (Elt F) → (⟨S6500000x1, .i32⟩ : BufTy).Contents (Elt F) → (⟨S6500000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)) ]

/-- The whole line. -/
abbrev ops : List (HloOp τ sig (Elt F)) :=
  endsOps ++ (selectOps ++ (coefOps ++ (layer1Ops ++ layer2Ops)))

set_option maxRecDepth 8192 in
set_option maxHeartbeats 4000000 in
/-- The program is the sequence of the line's operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- The fold over the whole line is the folds over the five stretches, one after another. -/
theorem after_ops (V : Valuation τ sig (Elt F)) :
    after (ops (F := F)) V = after layer2Ops (after layer1Ops (after coefOps (after selectOps (after endsOps V)))) := by
  unfold ops
  rw [after_append, after_append, after_append, after_append]

set_option maxRecDepth 8192 in
set_option maxHeartbeats 4000000 in
/-- Every weakly fair execution terminates without a fault, each buffer at the fold of the line over the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Line

end
-- ==== Proof.RefArgs.lean ====
/-
  The reference program's argument arrays are written by none of its operations: after each stretch, and so after the
  whole line, each argument buffer holds what it held before.
-/
import proofs.«117412_j22462678958349_1_alg».proof.Proof.RefRun

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

theorem endsOps_keeps_arg0 : after (endsOps (F := F)) V (Proc.devRef .tc main_arg0) = V (Proc.devRef .tc main_arg0) := by after_results
theorem endsOps_keeps_arg1 : after (endsOps (F := F)) V (Proc.devRef .tc main_arg1) = V (Proc.devRef .tc main_arg1) := by after_results
theorem endsOps_keeps_arg2 : after (endsOps (F := F)) V (Proc.devRef .tc main_arg2) = V (Proc.devRef .tc main_arg2) := by after_results
theorem endsOps_keeps_arg3 : after (endsOps (F := F)) V (Proc.devRef .tc main_arg3) = V (Proc.devRef .tc main_arg3) := by after_results
theorem endsOps_keeps_arg4 : after (endsOps (F := F)) V (Proc.devRef .tc main_arg4) = V (Proc.devRef .tc main_arg4) := by after_results
theorem endsOps_keeps_arg5 : after (endsOps (F := F)) V (Proc.devRef .tc main_arg5) = V (Proc.devRef .tc main_arg5) := by after_results

theorem selectOps_keeps_arg0 : after (selectOps (F := F)) V (Proc.devRef .tc main_arg0) = V (Proc.devRef .tc main_arg0) := by after_results
theorem selectOps_keeps_arg1 : after (selectOps (F := F)) V (Proc.devRef .tc main_arg1) = V (Proc.devRef .tc main_arg1) := by after_results
theorem selectOps_keeps_arg2 : after (selectOps (F := F)) V (Proc.devRef .tc main_arg2) = V (Proc.devRef .tc main_arg2) := by after_results
theorem selectOps_keeps_arg3 : after (selectOps (F := F)) V (Proc.devRef .tc main_arg3) = V (Proc.devRef .tc main_arg3) := by after_results
theorem selectOps_keeps_arg4 : after (selectOps (F := F)) V (Proc.devRef .tc main_arg4) = V (Proc.devRef .tc main_arg4) := by after_results
theorem selectOps_keeps_arg5 : after (selectOps (F := F)) V (Proc.devRef .tc main_arg5) = V (Proc.devRef .tc main_arg5) := by after_results

theorem coefOps_keeps_arg0 : after (coefOps (F := F)) V (Proc.devRef .tc main_arg0) = V (Proc.devRef .tc main_arg0) := by after_results
theorem coefOps_keeps_arg1 : after (coefOps (F := F)) V (Proc.devRef .tc main_arg1) = V (Proc.devRef .tc main_arg1) := by after_results
theorem coefOps_keeps_arg2 : after (coefOps (F := F)) V (Proc.devRef .tc main_arg2) = V (Proc.devRef .tc main_arg2) := by after_results
theorem coefOps_keeps_arg3 : after (coefOps (F := F)) V (Proc.devRef .tc main_arg3) = V (Proc.devRef .tc main_arg3) := by after_results
theorem coefOps_keeps_arg4 : after (coefOps (F := F)) V (Proc.devRef .tc main_arg4) = V (Proc.devRef .tc main_arg4) := by after_results
theorem coefOps_keeps_arg5 : after (coefOps (F := F)) V (Proc.devRef .tc main_arg5) = V (Proc.devRef .tc main_arg5) := by after_results

theorem layer1Ops_keeps_arg0 : after (layer1Ops (F := F)) V (Proc.devRef .tc main_arg0) = V (Proc.devRef .tc main_arg0) := by after_results
theorem layer1Ops_keeps_arg1 : after (layer1Ops (F := F)) V (Proc.devRef .tc main_arg1) = V (Proc.devRef .tc main_arg1) := by after_results
theorem layer1Ops_keeps_arg2 : after (layer1Ops (F := F)) V (Proc.devRef .tc main_arg2) = V (Proc.devRef .tc main_arg2) := by after_results
theorem layer1Ops_keeps_arg3 : after (layer1Ops (F := F)) V (Proc.devRef .tc main_arg3) = V (Proc.devRef .tc main_arg3) := by after_results
theorem layer1Ops_keeps_arg4 : after (layer1Ops (F := F)) V (Proc.devRef .tc main_arg4) = V (Proc.devRef .tc main_arg4) := by after_results
theorem layer1Ops_keeps_arg5 : after (layer1Ops (F := F)) V (Proc.devRef .tc main_arg5) = V (Proc.devRef .tc main_arg5) := by after_results

theorem layer2Ops_keeps_arg0 : after (layer2Ops (F := F)) V (Proc.devRef .tc main_arg0) = V (Proc.devRef .tc main_arg0) := by after_results
theorem layer2Ops_keeps_arg1 : after (layer2Ops (F := F)) V (Proc.devRef .tc main_arg1) = V (Proc.devRef .tc main_arg1) := by after_results
theorem layer2Ops_keeps_arg2 : after (layer2Ops (F := F)) V (Proc.devRef .tc main_arg2) = V (Proc.devRef .tc main_arg2) := by after_results
theorem layer2Ops_keeps_arg3 : after (layer2Ops (F := F)) V (Proc.devRef .tc main_arg3) = V (Proc.devRef .tc main_arg3) := by after_results
theorem layer2Ops_keeps_arg4 : after (layer2Ops (F := F)) V (Proc.devRef .tc main_arg4) = V (Proc.devRef .tc main_arg4) := by after_results
theorem layer2Ops_keeps_arg5 : after (layer2Ops (F := F)) V (Proc.devRef .tc main_arg5) = V (Proc.devRef .tc main_arg5) := by after_results

/-- Argument 0 after the whole line. -/
theorem ops_keeps_arg0 : after (ops (F := F)) V (Proc.devRef .tc main_arg0) = V (Proc.devRef .tc main_arg0) := by
  rw [after_ops]
  exact (layer2Ops_keeps_arg0 _).trans ((layer1Ops_keeps_arg0 _).trans ((coefOps_keeps_arg0 _).trans
    ((selectOps_keeps_arg0 _).trans (endsOps_keeps_arg0 V))))
/-- Argument 1 after the whole line. -/
theorem ops_keeps_arg1 : after (ops (F := F)) V (Proc.devRef .tc main_arg1) = V (Proc.devRef .tc main_arg1) := by
  rw [after_ops]
  exact (layer2Ops_keeps_arg1 _).trans ((layer1Ops_keeps_arg1 _).trans ((coefOps_keeps_arg1 _).trans
    ((selectOps_keeps_arg1 _).trans (endsOps_keeps_arg1 V))))
/-- Argument 2 after the whole line. -/
theorem ops_keeps_arg2 : after (ops (F := F)) V (Proc.devRef .tc main_arg2) = V (Proc.devRef .tc main_arg2) := by
  rw [after_ops]
  exact (layer2Ops_keeps_arg2 _).trans ((layer1Ops_keeps_arg2 _).trans ((coefOps_keeps_arg2 _).trans
    ((selectOps_keeps_arg2 _).trans (endsOps_keeps_arg2 V))))
/-- Argument 3 after the whole line. -/
theorem ops_keeps_arg3 : after (ops (F := F)) V (Proc.devRef .tc main_arg3) = V (Proc.devRef .tc main_arg3) := by
  rw [after_ops]
  exact (layer2Ops_keeps_arg3 _).trans ((layer1Ops_keeps_arg3 _).trans ((coefOps_keeps_arg3 _).trans
    ((selectOps_keeps_arg3 _).trans (endsOps_keeps_arg3 V))))
/-- Argument 4 after the whole line. -/
theorem ops_keeps_arg4 : after (ops (F := F)) V (Proc.devRef .tc main_arg4) = V (Proc.devRef .tc main_arg4) := by
  rw [after_ops]
  exact (layer2Ops_keeps_arg4 _).trans ((layer1Ops_keeps_arg4 _).trans ((coefOps_keeps_arg4 _).trans
    ((selectOps_keeps_arg4 _).trans (endsOps_keeps_arg4 V))))
/-- Argument 5 after the whole line. -/
theorem ops_keeps_arg5 : after (ops (F := F)) V (Proc.devRef .tc main_arg5) = V (Proc.devRef .tc main_arg5) := by
  rw [after_ops]
  exact (layer2Ops_keeps_arg5 _).trans ((layer1Ops_keeps_arg5 _).trans ((coefOps_keeps_arg5 _).trans
    ((selectOps_keeps_arg5 _).trans (endsOps_keeps_arg5 V))))

end Cert.ReferenceIdeal.Line

end
-- ==== Proof.RefHost.lean ====
/-
  The idealized reference program's five stretches, each read over an ARBITRARY valuation of the buffers, in terms of
  the same sparse-stage functions as the kernel program's stretches: the endpoints, degrees and reciprocal roots; the
  outlined selection; the coefficients; the first layer — the whole product of the features with the first weight,
  one aggregation, the bias broadcast over the rows —; the second layer — the rectifier, the whole product with the
  second weight, one aggregation, the bias.
-/
import proofs.«117412_j22462678958349_1_alg».proof.Proof.RefRun
import proofs.«117412_j22462678958349_1_alg».proof.Proof.Glue

set_option maxRecDepth 16384

noncomputable section

namespace Cert.Gcn.RefHost

open Cert.Gcn Cert.ReferenceIdeal Cert.ReferenceIdeal.Line Cert.ReferenceIdeal.Facts₀
open Idealize.ShloMosaic Idealize.ShloMosaic.TcCoe Idealize.ShloMosaic.StableHlo Idealize.SL.Sem

variable (W : Valuation τ sig (Elt Ideal))

/-! ## Endpoints, degrees, reciprocal roots -/

theorem r0_src : after (endsOps (F := Ideal)) W (Proc.devRef .tc main_v3) = srcOf (W (Proc.devRef .tc main_arg1)) := by
  after_results; rfl
theorem r0_dst : after (endsOps (F := Ideal)) W (Proc.devRef .tc main_v6) = dstOf (W (Proc.devRef .tc main_arg1)) := by
  after_results; rfl
theorem r0_pos : after (endsOps (F := Ideal)) W (Proc.devRef .tc main_v12)
    = cmpf .ogt (deg (dstOf (W (Proc.devRef .tc main_arg1))))
        (broadcastInDim S100000 ![] Facts₀.bcast_S_S100000 (constant (F := Ideal) S_ .f32 0x00000000#32)) := by
  after_results; rfl
theorem r0_rsqrt : after (endsOps (F := Ideal)) W (Proc.devRef .tc main_v13) = Host.rsqrt (deg (dstOf (W (Proc.devRef .tc main_arg1)))) := by
  after_results; rfl
theorem r0_zero : after (endsOps (F := Ideal)) W (Proc.devRef .tc main_cst_2) = constant (F := Ideal) S_ .f32 0x00000000#32 := by
  after_results
theorem r0_keep_arg0 : after (endsOps (F := Ideal)) W (Proc.devRef .tc main_arg0) = W (Proc.devRef .tc main_arg0) := by after_results
theorem r0_keep_arg2 : after (endsOps (F := Ideal)) W (Proc.devRef .tc main_arg2) = W (Proc.devRef .tc main_arg2) := by after_results
theorem r0_keep_arg3 : after (endsOps (F := Ideal)) W (Proc.devRef .tc main_arg3) = W (Proc.devRef .tc main_arg3) := by after_results
theorem r0_keep_arg4 : after (endsOps (F := Ideal)) W (Proc.devRef .tc main_arg4) = W (Proc.devRef .tc main_arg4) := by after_results
theorem r0_keep_arg5 : after (endsOps (F := Ideal)) W (Proc.devRef .tc main_arg5) = W (Proc.devRef .tc main_arg5) := by after_results

/-! ## The outlined selection -/

theorem r01_dinv : after (selectOps (F := Ideal)) W (Proc.devRef .tc main_v14)
    = select (W (Proc.devRef .tc main_v12)) (W (Proc.devRef .tc main_v13))
        (broadcastInDim S100000 ![] Facts₀.bcast_S_S100000 (W (Proc.devRef .tc main_cst_2))) := by
  after_results; rfl
theorem r01_keep_v3 : after (selectOps (F := Ideal)) W (Proc.devRef .tc main_v3) = W (Proc.devRef .tc main_v3) := by after_results
theorem r01_keep_v6 : after (selectOps (F := Ideal)) W (Proc.devRef .tc main_v6) = W (Proc.devRef .tc main_v6) := by after_results
theorem r01_keep_arg0 : after (selectOps (F := Ideal)) W (Proc.devRef .tc main_arg0) = W (Proc.devRef .tc main_arg0) := by after_results
theorem r01_keep_arg2 : after (selectOps (F := Ideal)) W (Proc.devRef .tc main_arg2) = W (Proc.devRef .tc main_arg2) := by after_results
theorem r01_keep_arg3 : after (selectOps (F := Ideal)) W (Proc.devRef .tc main_arg3) = W (Proc.devRef .tc main_arg3) := by after_results
theorem r01_keep_arg4 : after (selectOps (F := Ideal)) W (Proc.devRef .tc main_arg4) = W (Proc.devRef .tc main_arg4) := by after_results
theorem r01_keep_arg5 : after (selectOps (F := Ideal)) W (Proc.devRef .tc main_arg5) = W (Proc.devRef .tc main_arg5) := by after_results

/-! ## The coefficients -/

theorem r02_coef : after (coefOps (F := Ideal)) W (Proc.devRef .tc main_v29)
    = coefOf (W (Proc.devRef .tc main_v14)) (W (Proc.devRef .tc main_v3)) (W (Proc.devRef .tc main_v6)) := by
  after_results_simp; rfl
theorem r02_keep_v3 : after (coefOps (F := Ideal)) W (Proc.devRef .tc main_v3) = W (Proc.devRef .tc main_v3) := by after_results
theorem r02_keep_v6 : after (coefOps (F := Ideal)) W (Proc.devRef .tc main_v6) = W (Proc.devRef .tc main_v6) := by after_results
theorem r02_keep_arg0 : after (coefOps (F := Ideal)) W (Proc.devRef .tc main_arg0) = W (Proc.devRef .tc main_arg0) := by after_results
theorem r02_keep_arg2 : after (coefOps (F := Ideal)) W (Proc.devRef .tc main_arg2) = W (Proc.devRef .tc main_arg2) := by after_results
theorem r02_keep_arg3 : after (coefOps (F := Ideal)) W (Proc.devRef .tc main_arg3) = W (Proc.devRef .tc main_arg3) := by after_results
theorem r02_keep_arg4 : after (coefOps (F := Ideal)) W (Proc.devRef .tc main_arg4) = W (Proc.devRef .tc main_arg4) := by after_results
theorem r02_keep_arg5 : after (coefOps (F := Ideal)) W (Proc.devRef .tc main_arg5) = W (Proc.devRef .tc main_arg5) := by after_results

/-! ## The first layer -/

theorem r1_pre : after (layer1Ops (F := Ideal)) W (Proc.devRef .tc main_v46)
    = addf
        (agg (W (Proc.devRef .tc main_v29)) (W (Proc.devRef .tc main_v3)) (W (Proc.devRef .tc main_v6))
          (Host.dotGeneral (F := Ideal) (φ₁ := .f32) (φ₂ := .f32) dot_S100000x512_S512x16_S100000x16_1_0_0_1_n_n none (W (Proc.devRef .tc main_arg0)) (W (Proc.devRef .tc main_arg2))))
        (broadcastInDim S100000x16 ![0, 1] Facts₀.bcast_S1x16_S100000x16_0_1
          (broadcastInDim S1x16 ![1] Facts₀.bcast_S16_S1x16_1 (W (Proc.devRef .tc main_arg3)))) := by
  after_results_simp; rfl
theorem r1_keep_v3 : after (layer1Ops (F := Ideal)) W (Proc.devRef .tc main_v3) = W (Proc.devRef .tc main_v3) := by after_results
theorem r1_keep_v6 : after (layer1Ops (F := Ideal)) W (Proc.devRef .tc main_v6) = W (Proc.devRef .tc main_v6) := by after_results
theorem r1_keep_v29 : after (layer1Ops (F := Ideal)) W (Proc.devRef .tc main_v29) = W (Proc.devRef .tc main_v29) := by after_results
theorem r1_keep_arg4 : after (layer1Ops (F := Ideal)) W (Proc.devRef .tc main_arg4) = W (Proc.devRef .tc main_arg4) := by after_results
theorem r1_keep_arg5 : after (layer1Ops (F := Ideal)) W (Proc.devRef .tc main_arg5) = W (Proc.devRef .tc main_arg5) := by after_results

/-! ## The second layer -/

theorem r2_out : after (layer2Ops (F := Ideal)) W (Proc.devRef .tc main_v64)
    = addf
        (agg (W (Proc.devRef .tc main_v29)) (W (Proc.devRef .tc main_v3)) (W (Proc.devRef .tc main_v6))
          (Host.dotGeneral (F := Ideal) (φ₁ := .f32) (φ₂ := .f32) dot_S100000x16_S16x16_S100000x16_1_0_0_1_n_n none
            (maximumf (W (Proc.devRef .tc main_v46))
              (broadcastInDim S100000x16 ![] Facts₀.bcast_S_S100000x16 (constant (F := Ideal) S_ .f32 0x00000000#32)))
            (W (Proc.devRef .tc main_arg4))))
        (broadcastInDim S100000x16 ![0, 1] Facts₀.bcast_S1x16_S100000x16_0_1
          (broadcastInDim S1x16 ![1] Facts₀.bcast_S16_S1x16_1 (W (Proc.devRef .tc main_arg5)))) := by
  after_results_simp; rfl

end Cert.Gcn.RefHost

end
-- ==== Proof.RefValue.lean ====
/-
  The idealized reference program's result as the network of its arguments. The fold of its line over the launch memory
  is followed stretch by stretch (`L0` the launch memory, `L1` … `L4` after each of the first four stretches): the
  messages' endpoints and coefficients are fixed by the first three stretches and kept afterwards, each layer is a
  whole product, one aggregation and a bias. The three dense stages are then the layer specification's functions (the
  hypotheses `d1`, `d2`, `d3`: a whole product read entry by entry is the sum over the contracted axis).
-/
import proofs.«117412_j22462678958349_1_alg».proof.Proof.RefHost

set_option maxRecDepth 16384

noncomputable section

namespace Cert.Gcn.RefValue

open Cert.Gcn Cert.Gcn.RefHost Cert.ReferenceIdeal Cert.ReferenceIdeal.Line Cert.ReferenceIdeal.Facts₀
open Idealize.ShloMosaic Idealize.ShloMosaic.TcCoe Idealize.ShloMosaic.StableHlo Idealize.SL.Sem

variable (m : (ℓ : Loc nD τ sig) → Buf (Elt Ideal) ℓ) (c : Dev nD)

/-- The launch memory, and the buffers after each of the first four stretches. -/
abbrev L0 : Valuation τ sig (Elt Ideal) := launchContents m c
abbrev L1 : Valuation τ sig (Elt Ideal) := after (endsOps (F := Ideal)) (L0 m c)
abbrev L2 : Valuation τ sig (Elt Ideal) := after (selectOps (F := Ideal)) (L1 m c)
abbrev L3 : Valuation τ sig (Elt Ideal) := after (coefOps (F := Ideal)) (L2 m c)
abbrev L4 : Valuation τ sig (Elt Ideal) := after (layer1Ops (F := Ideal)) (L3 m c)

/-! ## After the first stretch -/

theorem c1_src : L1 m c (Proc.devRef .tc main_v3) = srcOf (m ((c.tc : Thread nD τ).loc main_arg1)) := r0_src (L0 m c)
theorem c1_dst : L1 m c (Proc.devRef .tc main_v6) = dstOf (m ((c.tc : Thread nD τ).loc main_arg1)) := r0_dst (L0 m c)
theorem c1_pos : L1 m c (Proc.devRef .tc main_v12)
    = cmpf .ogt (deg (dstOf (m ((c.tc : Thread nD τ).loc main_arg1))))
        (broadcastInDim S100000 ![] Facts₀.bcast_S_S100000 (constant (F := Ideal) S_ .f32 0x00000000#32)) := r0_pos (L0 m c)
theorem c1_rsqrt : L1 m c (Proc.devRef .tc main_v13) = Host.rsqrt (deg (dstOf (m ((c.tc : Thread nD τ).loc main_arg1)))) := r0_rsqrt (L0 m c)
theorem c1_zero : L1 m c (Proc.devRef .tc main_cst_2) = constant (F := Ideal) S_ .f32 0x00000000#32 := r0_zero (L0 m c)

/-! ## After the outlined selection -/

theorem c2_src : L2 m c (Proc.devRef .tc main_v3) = srcOf (m ((c.tc : Thread nD τ).loc main_arg1)) := (r01_keep_v3 (L1 m c)).trans (c1_src m c)
theorem c2_dst : L2 m c (Proc.devRef .tc main_v6) = dstOf (m ((c.tc : Thread nD τ).loc main_arg1)) := (r01_keep_v6 (L1 m c)).trans (c1_dst m c)
theorem c2_dinv : L2 m c (Proc.devRef .tc main_v14) = dinv (deg (dstOf (m ((c.tc : Thread nD τ).loc main_arg1)))) := by
  refine (r01_dinv (L1 m c)).trans ?_
  rw [c1_pos, c1_rsqrt, c1_zero]; rfl

/-! ## After the coefficients -/

theorem c3_src : L3 m c (Proc.devRef .tc main_v3) = srcOf (m ((c.tc : Thread nD τ).loc main_arg1)) := (r02_keep_v3 (L2 m c)).trans (c2_src m c)
theorem c3_dst : L3 m c (Proc.devRef .tc main_v6) = dstOf (m ((c.tc : Thread nD τ).loc main_arg1)) := (r02_keep_v6 (L2 m c)).trans (c2_dst m c)
theorem c3_coef : L3 m c (Proc.devRef .tc main_v29) = coefs (m ((c.tc : Thread nD τ).loc main_arg1)) := by
  refine (r02_coef (L2 m c)).trans ?_
  rw [c2_dinv, c2_src, c2_dst]; rfl
theorem c3_arg0 : L3 m c (Proc.devRef .tc main_arg0) = m ((c.tc : Thread nD τ).loc main_arg0) :=
  (r02_keep_arg0 (L2 m c)).trans ((r01_keep_arg0 (L1 m c)).trans (r0_keep_arg0 (L0 m c)))
theorem c3_arg2 : L3 m c (Proc.devRef .tc main_arg2) = m ((c.tc : Thread nD τ).loc main_arg2) :=
  (r02_keep_arg2 (L2 m c)).trans ((r01_keep_arg2 (L1 m c)).trans (r0_keep_arg2 (L0 m c)))
theorem c3_arg3 : L3 m c (Proc.devRef .tc main_arg3) = m ((c.tc : Thread nD τ).loc main_arg3) :=
  (r02_keep_arg3 (L2 m c)).trans ((r01_keep_arg3 (L1 m c)).trans (r0_keep_arg3 (L0 m c)))
theorem c3_arg4 : L3 m c (Proc.devRef .tc main_arg4) = m ((c.tc : Thread nD τ).loc main_arg4) :=
  (r02_keep_arg4 (L2 m c)).trans ((r01_keep_arg4 (L1 m c)).trans (r0_keep_arg4 (L0 m c)))
theorem c3_arg5 : L3 m c (Proc.devRef .tc main_arg5) = m ((c.tc : Thread nD τ).loc main_arg5) :=
  (r02_keep_arg5 (L2 m c)).trans ((r01_keep_arg5 (L1 m c)).trans (r0_keep_arg5 (L0 m c)))

/-! ## After the first layer -/

theorem c4_pre : L4 m c (Proc.devRef .tc main_v46) = (addf (agg (coefs (m ((c.tc : Thread nD τ).loc main_arg1))) (srcOf (m ((c.tc : Thread nD τ).loc main_arg1))) (dstOf (m ((c.tc : Thread nD τ).loc main_arg1))) (Host.dotGeneral (F := Ideal) (φ₁ := .f32) (φ₂ := .f32) dot_S100000x512_S512x16_S100000x16_1_0_0_1_n_n none (m ((c.tc : Thread nD τ).loc main_arg0)) (m ((c.tc : Thread nD τ).loc main_arg2)))) (broadcastInDim S100000x16 ![0, 1] Facts₀.bcast_S1x16_S100000x16_0_1 (broadcastInDim S1x16 ![1] Facts₀.bcast_S16_S1x16_1 (m ((c.tc : Thread nD τ).loc main_arg3))))) := by
  refine (r1_pre (L3 m c)).trans ?_
  rw [c3_coef, c3_src, c3_dst, c3_arg0, c3_arg2, c3_arg3]
theorem c4_src : L4 m c (Proc.devRef .tc main_v3) = srcOf (m ((c.tc : Thread nD τ).loc main_arg1)) := (r1_keep_v3 (L3 m c)).trans (c3_src m c)
theorem c4_dst : L4 m c (Proc.devRef .tc main_v6) = dstOf (m ((c.tc : Thread nD τ).loc main_arg1)) := (r1_keep_v6 (L3 m c)).trans (c3_dst m c)
theorem c4_coef : L4 m c (Proc.devRef .tc main_v29) = coefs (m ((c.tc : Thread nD τ).loc main_arg1)) := (r1_keep_v29 (L3 m c)).trans (c3_coef m c)
theorem c4_arg4 : L4 m c (Proc.devRef .tc main_arg4) = m ((c.tc : Thread nD τ).loc main_arg4) := (r1_keep_arg4 (L3 m c)).trans (c3_arg4 m c)
theorem c4_arg5 : L4 m c (Proc.devRef .tc main_arg5) = m ((c.tc : Thread nD τ).loc main_arg5) := (r1_keep_arg5 (L3 m c)).trans (c3_arg5 m c)

/-! ## The result -/

/-- The result buffer after the whole line, in the reference's own operations. -/
theorem result_line : after (ops (F := Ideal)) (launchContents m c) (Proc.devRef .tc main_v64) = addf (agg (coefs (m ((c.tc : Thread nD τ).loc main_arg1))) (srcOf (m ((c.tc : Thread nD τ).loc main_arg1))) (dstOf (m ((c.tc : Thread nD τ).loc main_arg1))) (Host.dotGeneral (F := Ideal) (φ₁ := .f32) (φ₂ := .f32) dot_S100000x16_S16x16_S100000x16_1_0_0_1_n_n none (maximumf (addf (agg (coefs (m ((c.tc : Thread nD τ).loc main_arg1))) (srcOf (m ((c.tc : Thread nD τ).loc main_arg1))) (dstOf (m ((c.tc : Thread nD τ).loc main_arg1))) (Host.dotGeneral (F := Ideal) (φ₁ := .f32) (φ₂ := .f32) dot_S100000x512_S512x16_S100000x16_1_0_0_1_n_n none (m ((c.tc : Thread nD τ).loc main_arg0)) (m ((c.tc : Thread nD τ).loc main_arg2)))) (broadcastInDim S100000x16 ![0, 1] Facts₀.bcast_S1x16_S100000x16_0_1 (broadcastInDim S1x16 ![1] Facts₀.bcast_S16_S1x16_1 (m ((c.tc : Thread nD τ).loc main_arg3))))) (broadcastInDim S100000x16 ![] Facts₀.bcast_S_S100000x16 (constant (F := Ideal) S_ .f32 0x00000000#32))) (m ((c.tc : Thread nD τ).loc main_arg4)))) (broadcastInDim S100000x16 ![0, 1] Facts₀.bcast_S1x16_S100000x16_0_1 (broadcastInDim S1x16 ![1] Facts₀.bcast_S16_S1x16_1 (m ((c.tc : Thread nD τ).loc main_arg5)))) := by
  rw [after_ops]
  refine (r2_out (L4 m c)).trans ?_
  rw [c4_coef, c4_src, c4_dst, c4_pre, c4_arg4, c4_arg5]

section Dense

variable
  (d1 : ∀ (x : FVec Ideal S100000x512 .f32) (w : FVec Ideal S512x16 .f32),
    Host.dotGeneral (F := Ideal) dot_S100000x512_S512x16_S100000x16_1_0_0_1_n_n none x w = lin x w)
  (d2 : ∀ (a : FVec Ideal S100000x16 .f32) (b : FVec Ideal S16 .f32) (w : FVec Ideal S16x16 .f32),
    Host.dotGeneral (F := Ideal) dot_S100000x16_S16x16_S100000x16_1_0_0_1_n_n none
      (maximumf (addf a (broadcastInDim S100000x16 ![0, 1] Facts₀.bcast_S1x16_S100000x16_0_1 (broadcastInDim S1x16 ![1] Facts₀.bcast_S16_S1x16_1 b)))
        (broadcastInDim S100000x16 ![] Facts₀.bcast_S_S100000x16 (constant (F := Ideal) S_ .f32 0x00000000#32))) w = reluLin a (rowOf b) w)
  (d3 : ∀ (a : FVec Ideal S100000x16 .f32) (b : FVec Ideal S16 .f32),
    addf a (broadcastInDim S100000x16 ![0, 1] Facts₀.bcast_S1x16_S100000x16_0_1 (broadcastInDim S1x16 ![1] Facts₀.bcast_S16_S1x16_1 b)) = addBias a (rowOf b))

include d1 d2 d3 in
/-- The result buffer after the whole line is the network of the launch memory's arguments. -/
theorem result_eq : after (ops (F := Ideal)) (launchContents m c) (Proc.devRef .tc main_v64)
    = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [result_line, d1, d2, d3]
  rfl

end Dense

end Cert.Gcn.RefValue

end
-- ==== Proof.Dense.lean ====
/-
  The plain program's dense stages are the same three whole-array functions as the tiled stages'. Its two matrix
  products over all 100000 rows at once are, entry by entry, the sums `lin` and `reluLin` name; its bias, a 16-vector
  spread first to a [1, 16] row and then along the 100000 rows, reads at (r, j) the vector's entry j — which is what the
  bias as a [1, 16] row reads at (0, j); its rectifier is the maximum with a zero spread over the whole array.
-/
import proofs.«117412_j22462678958349_1_alg».proof.Proof.Gen.ReferenceIdeal
import proofs.«117412_j22462678958349_1_alg».proof.Proof.Glue
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Idealize.ShloMosaic Idealize.ShloMosaic.ValueIdx Cert.KernelIdeal

/-- The 16-vector spread to a row and then along all rows reads, at (r, j), what the vector as a [1, 16] row reads
    at (0, j): the vector's entry j. -/
theorem biasRows_apply (b : FVec Ideal S16 .f32) (p : Fin 100000) (k : Fin 16) :
    broadcastInDim S100000x16 ![0, 1] Cert.ReferenceIdeal.Facts₀.bcast_S1x16_S100000x16_0_1
        (broadcastInDim S1x16 ![1] Cert.ReferenceIdeal.Facts₀.bcast_S16_S1x16_1 b) (ix2 p k) = rowOf b (ix2 (0 : Fin 1) k) := by
  unfold rowOf
  rw [shapeCast_a_1a_apply]
  refine (broadcastInDim_apply _ _ _ (ix2 p k) (ix2 (0 : Fin 1) k) fun a => ?_).trans ?_
  · match a with
    | ⟨0, _⟩ => rfl
    | ⟨1, _⟩ => rfl
  · refine broadcastInDim_apply _ _ b (ix2 (0 : Fin 1) k) (ix1 k) fun a => ?_
    match a with
    | ⟨0, _⟩ => rfl

/-- The zero scalar spread over the whole array reads 0 everywhere. -/
theorem zeros_apply (i : S100000x16.Idx) :
    broadcastInDim S100000x16 ![] Cert.ReferenceIdeal.Facts₀.bcast_S_S100000x16
        (constant (F := Ideal) S_ .f32 0x00000000#32) i = (0 : EReal) := by
  refine (broadcastInDim_apply _ _ _ i ix0 fun a => a.elim0).trans ?_
  rw [constant_apply, Ideal.ofBits_zero_f32]

/-- The first product over all rows at once is `lin`. -/
theorem dot1_eq (x : FVec Ideal S100000x512 .f32) (w : FVec Ideal S512x16 .f32) :
    Host.dotGeneral (F := Ideal) Cert.ReferenceIdeal.dot_S100000x512_S512x16_S100000x16_1_0_0_1_n_n none x w = lin x w := by
  funext i
  obtain ⟨p, q, rfl⟩ : ∃ (p : Fin 100000) (q : Fin 16), i = ix2 p q := ⟨i 0, i 1, eq_ix2 i⟩
  show FloatOps.dotGeneral _ none _ x w (ix2 p q) = _
  rw [Ideal.dotGeneral_apply, ← Equiv.sum_comp (contrEquiv1 Cert.ReferenceIdeal.dot_S100000x512_S512x16_S100000x16_1_0_0_1_n_n 512 rfl rfl).symm]
  unfold lin
  refine Finset.sum_congr rfl fun k _ => ?_
  have hk := contrEquiv1_symm_val Cert.ReferenceIdeal.dot_S100000x512_S512x16_S100000x16_1_0_0_1_n_n 512 rfl rfl k
  have hl : (Cert.ReferenceIdeal.dot_S100000x512_S512x16_S100000x16_1_0_0_1_n_n).lhsIdx (ix2 p q) ((contrEquiv1 _ 512 rfl rfl).symm k) = ix2 p k := by
    funext ax; apply Fin.ext
    match ax with
    | ⟨0, _⟩ => simp [DotDims.lhsIdx, Cert.ReferenceIdeal.dot_S100000x512_S512x16_S100000x16_1_0_0_1_n_n]; rfl
    | ⟨1, _⟩ => simp [DotDims.lhsIdx, Cert.ReferenceIdeal.dot_S100000x512_S512x16_S100000x16_1_0_0_1_n_n]; exact hk
  have hr : (Cert.ReferenceIdeal.dot_S100000x512_S512x16_S100000x16_1_0_0_1_n_n).rhsIdx (ix2 p q) ((contrEquiv1 _ 512 rfl rfl).symm k) = ix2 k q := by
    funext ax; apply Fin.ext
    match ax with
    | ⟨0, _⟩ => simp [DotDims.rhsIdx, Cert.ReferenceIdeal.dot_S100000x512_S512x16_S100000x16_1_0_0_1_n_n]; exact hk
    | ⟨1, _⟩ => simp [DotDims.rhsIdx, Cert.ReferenceIdeal.dot_S100000x512_S512x16_S100000x16_1_0_0_1_n_n]; rfl
  rw [hl, hr]

/-- The second product over all rows at once, of the rectified biased activations, is `reluLin` with the bias as a
    [1, 16] row. -/
theorem dot2_eq (a : FVec Ideal S100000x16 .f32) (b : FVec Ideal S16 .f32) (w2 : FVec Ideal S16x16 .f32) :
    Host.dotGeneral (F := Ideal) Cert.ReferenceIdeal.dot_S100000x16_S16x16_S100000x16_1_0_0_1_n_n none
      (maximumf (addf a (broadcastInDim S100000x16 ![0, 1] Cert.ReferenceIdeal.Facts₀.bcast_S1x16_S100000x16_0_1
        (broadcastInDim S1x16 ![1] Cert.ReferenceIdeal.Facts₀.bcast_S16_S1x16_1 b)))
        (broadcastInDim S100000x16 ![] Cert.ReferenceIdeal.Facts₀.bcast_S_S100000x16
        (constant (F := Ideal) S_ .f32 0x00000000#32))) w2
      = reluLin a (rowOf b) w2 := by
  funext i
  obtain ⟨p, q, rfl⟩ : ∃ (p : Fin 100000) (q : Fin 16), i = ix2 p q := ⟨i 0, i 1, eq_ix2 i⟩
  show FloatOps.dotGeneral _ none _ _ w2 (ix2 p q) = _
  rw [Ideal.dotGeneral_apply, ← Equiv.sum_comp (contrEquiv1 Cert.ReferenceIdeal.dot_S100000x16_S16x16_S100000x16_1_0_0_1_n_n 16 rfl rfl).symm]
  unfold reluLin
  refine Finset.sum_congr rfl fun k _ => ?_
  have hk := contrEquiv1_symm_val Cert.ReferenceIdeal.dot_S100000x16_S16x16_S100000x16_1_0_0_1_n_n 16 rfl rfl k
  have hl : (Cert.ReferenceIdeal.dot_S100000x16_S16x16_S100000x16_1_0_0_1_n_n).lhsIdx (ix2 p q) ((contrEquiv1 _ 16 rfl rfl).symm k) = ix2 p k := by
    funext ax; apply Fin.ext
    match ax with
    | ⟨0, _⟩ => simp [DotDims.lhsIdx, Cert.ReferenceIdeal.dot_S100000x16_S16x16_S100000x16_1_0_0_1_n_n]; rfl
    | ⟨1, _⟩ => simp [DotDims.lhsIdx, Cert.ReferenceIdeal.dot_S100000x16_S16x16_S100000x16_1_0_0_1_n_n]; exact hk
  have hr : (Cert.ReferenceIdeal.dot_S100000x16_S16x16_S100000x16_1_0_0_1_n_n).rhsIdx (ix2 p q) ((contrEquiv1 _ 16 rfl rfl).symm k) = ix2 k q := by
    funext ax; apply Fin.ext
    match ax with
    | ⟨0, _⟩ => simp [DotDims.rhsIdx, Cert.ReferenceIdeal.dot_S100000x16_S16x16_S100000x16_1_0_0_1_n_n]; exact hk
    | ⟨1, _⟩ => simp [DotDims.rhsIdx, Cert.ReferenceIdeal.dot_S100000x16_S16x16_S100000x16_1_0_0_1_n_n]; rfl
  rw [hl, hr, maximumf_apply, addf_apply, biasRows_apply, zeros_apply]

/-- The closing bias over all rows at once is `addBias` with the bias as a [1, 16] row. -/
theorem bias_eq (a : FVec Ideal S100000x16 .f32) (b : FVec Ideal S16 .f32) :
    addf a (broadcastInDim S100000x16 ![0, 1] Cert.ReferenceIdeal.Facts₀.bcast_S1x16_S100000x16_0_1
        (broadcastInDim S1x16 ![1] Cert.ReferenceIdeal.Facts₀.bcast_S16_S1x16_1 b))
      = addBias a (rowOf b) := by
  funext i
  obtain ⟨p, q, rfl⟩ : ∃ (p : Fin 100000) (q : Fin 16), i = ix2 p q := ⟨i 0, i 1, eq_ix2 i⟩
  rw [addf_apply, biasRows_apply]
  rfl

end Cert.Gcn

end
-- ==== Proof.lean ====
/-
  A two-layer graph convolution on 100000 nodes and 6400000 edges, every node with a self loop: the kernel program
  computes its three dense stages (features times the first weight; bias, rectifier and the second weight; the last
  bias) block by block — 50 blocks of 2000 rows each — and the sparse stages (the degree normalisation and the two
  gather–scale–scatter aggregations) by the same host operations as the reference, which computes the dense stages as
  whole products.

  On the extended reals both programs return ONE function of their arguments, `Cert.Gcn.gcn`:
    * a dense stage's blocks tile the rows, and a block of a row-wise function is the function of the block;
    * a product with a zero accumulator, read at an entry, is the sum over the contracted axis — the same sum the
      reference's whole product is at that entry; narrowing a factor to sixteen bits is the identity here;
    * everything else is the same operation applied to the same values on both sides.
  No law used distributes over a sum or cancels, so the finiteness of the inputs is never opened.

  The three frame claims: the two kernel programs' are their generated runs; the reference is a straight line of host
  operations, which terminates with every buffer at the fold of the operations' results, and none writes an argument.
  The idealization rewrote nothing, so the kernel program is its own idealization's source text.
-/
import proofs.«117412_j22462678958349_1_alg».proof.Defs
import proofs.«117412_j22462678958349_1_alg».proof.Proof.Gen.Kernel
import proofs.«117412_j22462678958349_1_alg».proof.Proof.Gen.Kernel.Frame
import proofs.«117412_j22462678958349_1_alg».proof.Proof.Gen.KernelIdeal
import proofs.«117412_j22462678958349_1_alg».proof.Proof.Gen.KernelIdeal.Frame
import proofs.«117412_j22462678958349_1_alg».proof.Proof.Gen.ReferenceIdeal
import proofs.«117412_j22462678958349_1_alg».proof.Proof.Gen.Pre_finite_inputs
import proofs.«117412_j22462678958349_1_alg».proof.Proof.KernelRun
import proofs.«117412_j22462678958349_1_alg».proof.Proof.KernelValue
import proofs.«117412_j22462678958349_1_alg».proof.Proof.Region0
import proofs.«117412_j22462678958349_1_alg».proof.Proof.Region1
import proofs.«117412_j22462678958349_1_alg».proof.Proof.Region2
import proofs.«117412_j22462678958349_1_alg».proof.Proof.RefRun
import proofs.«117412_j22462678958349_1_alg».proof.Proof.RefArgs
import proofs.«117412_j22462678958349_1_alg».proof.Proof.RefValue
import proofs.«117412_j22462678958349_1_alg».proof.Proof.Dense
import Idealize.ShloMosaic.Adequacy
import Idealize.ShloMosaic.Init

noncomputable section

namespace Cert.Proof

open Idealize.ShloMosaic Idealize.SL.Sem

/-- The kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's line of host operations terminates, and no operation writes an argument. -/
theorem frame_referenceIdeal : Cert.frame_ReferenceIdeal := fun m ρ _ =>
  (θ_run Cert.ReferenceIdeal.defs _ _).mono
    (fun r h c =>
      ⟨(h c Cert.ReferenceIdeal.main_arg0).trans (Cert.ReferenceIdeal.Line.ops_keeps_arg0 _),
       (h c Cert.ReferenceIdeal.main_arg1).trans (Cert.ReferenceIdeal.Line.ops_keeps_arg1 _),
       (h c Cert.ReferenceIdeal.main_arg2).trans (Cert.ReferenceIdeal.Line.ops_keeps_arg2 _),
       (h c Cert.ReferenceIdeal.main_arg3).trans (Cert.ReferenceIdeal.Line.ops_keeps_arg3 _),
       (h c Cert.ReferenceIdeal.main_arg4).trans (Cert.ReferenceIdeal.Line.ops_keeps_arg4 _),
       (h c Cert.ReferenceIdeal.main_arg5).trans (Cert.ReferenceIdeal.Line.ops_keeps_arg5 _)⟩)
    (Cert.ReferenceIdeal.Line.run (F := Ideal) m ρ)

/-- Both idealized programs, from memories that agree on the arguments, return the network of those arguments. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans
          (Cert.Gcn.KernelValue.result_eq m ρ c Cert.Gcn.arr0 Cert.Gcn.arr1 Cert.Gcn.arr2), (h c).2⟩)
      (Cert.KernelIdeal.Result.run_result (F := Ideal) m ρ)
  · refine (θ_run Cert.ReferenceIdeal.defs _ _).mono (fun r h c => ⟨?_,
       (h c Cert.ReferenceIdeal.main_arg0).trans (Cert.ReferenceIdeal.Line.ops_keeps_arg0 _),
       (h c Cert.ReferenceIdeal.main_arg1).trans (Cert.ReferenceIdeal.Line.ops_keeps_arg1 _),
       (h c Cert.ReferenceIdeal.main_arg2).trans (Cert.ReferenceIdeal.Line.ops_keeps_arg2 _),
       (h c Cert.ReferenceIdeal.main_arg3).trans (Cert.ReferenceIdeal.Line.ops_keeps_arg3 _),
       (h c Cert.ReferenceIdeal.main_arg4).trans (Cert.ReferenceIdeal.Line.ops_keeps_arg4 _),
       (h c Cert.ReferenceIdeal.main_arg5).trans (Cert.ReferenceIdeal.Line.ops_keeps_arg5 _)⟩)
      (Cert.ReferenceIdeal.Line.run (F := Ideal) m' ρ')
    refine (h c Cert.ReferenceIdeal.main_v64).trans ?_
    rw [Cert.Gcn.RefValue.result_eq m' c Cert.Gcn.dot1_eq Cert.Gcn.dot2_eq Cert.Gcn.bias_eq]
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
